-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩
abbrev S1700000x128 : Shape := ⟨2, ![1700000, 128]⟩

abbrev nBuf : Space → Nat
  | .hbm => 65
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S100000x128, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000x128, .f32⟩
  | .hbm, ⟨44, _⟩ => ⟨S_, .f32⟩
  | .hbm, ⟨45, _⟩ => ⟨S100000x128, .f32⟩
  | .hbm, ⟨46, _⟩ => ⟨S1700000x1, .i32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S100000x128, .f32⟩
  | .hbm, ⟨64, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x1, .f32⟩
  | .local _ .vmem, ⟨18, _⟩ => ⟨S5000x1, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem4_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v41) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v42) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg0) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v18) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v43) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 100
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S1700000x1, .f32⟩
  | .hbm, ⟨83, _⟩ => ⟨S1700000x128, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S100000x128, .f32⟩
  | .hbm, ⟨94, _⟩ => ⟨S100000x128, .f32⟩
  | .hbm, ⟨95, _⟩ => ⟨S100000x128, .f32⟩
  | .hbm, ⟨96, _⟩ => ⟨S1x128, .f32⟩
  | .hbm, ⟨97, _⟩ => ⟨S100000x128, .f32⟩
  | .hbm, ⟨98, _⟩ => ⟨S100000x128, .f32⟩
  | .hbm, ⟨99, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call2_cst : Ref sig .tc := ⟨.hbm, 92, rfl⟩
abbrev main_call2_v0 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Spec.lean ====
/-
  The graph convolution's three node-side maps, each as ONE function of whole arrays over the extended reals, index by
  index. N = 100000 nodes carry 128 features; W is a 128 × 128 weight matrix; D is the per-node scale d(r), kept as an
  N × 1 column; B is a bias kept as a 1 × 128 row.

    lin X W (r, l)        = ∑ c, X(r, c) · W(c, l)                 row r of X against column l of W
    scaled X W D (r, l)   = lin X W (r, l) · d(r)                  the linear map, each row scaled by its node's d
    biasRelu A D B (r, l) = max (A(r, l) · d(r) + b(l)) 0          the aggregated row scaled again, bias, rectifier
    residual H X W B      = (H(r, l) + lin X W (r, l)) + b(l)      the projected input added back

  The zero of the rectifier is kept as the word the programs print (the f32 pattern of 0.0); it is the same word on both
  sides of every equation below and is never evaluated.
-/
import Idealize.ShloMosaic.PureOps.Ideal
import Idealize.ShloMosaic.Lib.ValueIdx

noncomputable section

open scoped BigOperators

namespace Cert.Gcn

open Idealize.ShloMosaic Idealize.ShloMosaic.ValueIdx

/-- Node features: 100000 rows of 128 lanes. -/
abbrev Feat : Shape := ⟨2, ![100000, 128]⟩
/-- A weight matrix. -/
abbrev Wt : Shape := ⟨2, ![128, 128]⟩
/-- One number per node, kept as a column. -/
abbrev NodeCol : Shape := ⟨2, ![100000, 1]⟩
/-- One number per lane, kept as a row. -/
abbrev LaneRow : Shape := ⟨2, ![1, 128]⟩

/-- Row `r` of `X` against column `l` of `W`. -/
def lin (X : Feat.Idx → EReal) (W : Wt.Idx → EReal) (r : Fin 100000) (l : Fin 128) : EReal :=
  ∑ c : Fin 128, X (ix2 r c) * W (ix2 c l)

/-- The linear map with each row scaled by its node's number. -/
def scaled (X : Feat.Idx → EReal) (W : Wt.Idx → EReal) (D : NodeCol.Idx → EReal) : Feat.Idx → EReal :=
  fun i => lin X W (i 0) (i 1) * D (ix2 (i 0) 0)

/-- Each row scaled by its node's number, the bias added, the rectifier applied. -/
def biasRelu (A : Feat.Idx → EReal) (D : NodeCol.Idx → EReal) (B : LaneRow.Idx → EReal) : Feat.Idx → EReal :=
  fun i => max (A i * D (ix2 (i 0) 0) + B (ix2 0 (i 1))) (Ideal.ofBits .f32 0x00000000#32)

/-- The hidden rows plus the projected input plus the projection's bias. -/
def residual (H X : Feat.Idx → EReal) (W : Wt.Idx → EReal) (B : LaneRow.Idx → EReal) : Feat.Idx → EReal :=
  fun i => H i + lin X W (i 0) (i 1) + B (ix2 0 (i 1))

theorem scaled_apply (X : Feat.Idx → EReal) (W : Wt.Idx → EReal) (D : NodeCol.Idx → EReal) (r : Fin 100000)
    (l : Fin 128) : scaled X W D (ix2 r l) = lin X W r l * D (ix2 r 0) := rfl

theorem biasRelu_apply (A : Feat.Idx → EReal) (D : NodeCol.Idx → EReal) (B : LaneRow.Idx → EReal) (r : Fin 100000)
    (l : Fin 128) :
    biasRelu A D B (ix2 r l) = max (A (ix2 r l) * D (ix2 r 0) + B (ix2 0 l)) (Ideal.ofBits .f32 0x00000000#32) := rfl

theorem residual_apply (H X : Feat.Idx → EReal) (W : Wt.Idx → EReal) (B : LaneRow.Idx → EReal) (r : Fin 100000)
    (l : Fin 128) : residual H X W B (ix2 r l) = H (ix2 r l) + lin X W r l + B (ix2 0 l) := rfl

end Cert.Gcn

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibRowOps.lean ====
/-
  Row-wise reductions with `keepdims`, read at an index: a length-`a` vector viewed as an `[a, 1]` column, a column
  broadcast along its rows to `[a, b]`, and a reduction over the second axis of an `[a, b]` array read at row `r` — the
  index the reduction inserts the dropped coordinate into is (r, k), so a row maximum is the fold of `max` over the row's
  entries and a row sum is the sum over them.
-/
import Idealize.ShloMosaic.Lib.Pipeline.Value
import Idealize.ShloMosaic.Lib.ValueIdx
import Idealize.ShloMosaic.PureOps.Ideal.Laws

noncomputable section

namespace RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `r` with the second-axis coordinate `k` put back is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A maximum over the second axis, at row `r`: the fold of `max`, from the accumulator's value, over the row. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) := by
  refine (Ideal.multiReduction_maximumf_single src acc h hφ hacc (ix1 r)).trans ?_
  have hf : (src ∘ h.lift (ix1 r)) = fun k : Fin b => src (ix2 r k) := funext fun k => congrArg src (lift_row h r k)
  exact congrArg (fun f => Finset.fold max (Ideal.ofBits .f32 acc) f (Finset.univ : Finset (Fin b))) hf

/-- A sum over the second axis, at row `r`: the sum over the row. -/
theorem rowSum_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end RowOps

end
-- ==== Proof.Region0.lean ====
/-
  The first pallas_call, as one function of whole arrays: the rows of X times W, each row scaled by its node's number.

  The call walks 20 grid points. Point t stages rows 5000·t … 5000·t + 4999 of X (all 128 lanes) and the same rows of the
  node column D, and the whole weight matrix W (its block index is (0, 0) at every point); the body multiplies the staged
  rows into W — the casts to a narrower float are the identity over the extended reals, and the accumulator starts
  at zero, so entry (p, q) of the product is ∑ c, x(p, c) · w(c, q) —, scales row p by the staged column's entry p, and
  writes the block back to the same rows of the result. Every row of the result lies in exactly one point's block
  (row r in point r / 5000), so the result array IS `scaled X W D`, whatever the three arrays held when the call began.
-/
import proofs.«105244_j45346264711451_2_alg».proof.Proof.Gen.KernelIdeal.Frame
import proofs.«105244_j45346264711451_2_alg».proof.Proof.Spec
import proofs.«105244_j45346264711451_2_alg».proof.Proof.LibPlainDot
import proofs.«105244_j45346264711451_2_alg».proof.Proof.LibRowOps
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q): row p of the staged rows against column q of the staged weights, times the
    staged column's entry p. -/
theorem pay_apply (x0 : Vec Ideal S5000x128 .f32) (x1 : Vec Ideal S128x128 .f32) (x2 : Vec Ideal S5000x1 .f32)
    (p : Fin 5000) (q : Fin 128) :
    k0_pay1 x0 x1 x2 (ix2 p q) = (∑ c : Fin 128, x0 (ix2 p c) * x1 (ix2 c q)) * x2 (ix2 p 0) := by
  unfold k0_pay1
  refine (mulf_apply _ _ _).trans ?_
  refine congrArg₂ (· * ·) ?_ ?_
  · exact Cert.PlainDot.matmul_zero_apply dot_S5000x128_S128x128_S5000x128_1_0_0_1_n_n rfl none _ _ p q
  · refine (RowOps.broadcastTo_a1_ab_apply _ _ p q).trans ?_
    rw [shapeCast_self]

/-- The printed index maps over the grid: the row windows and the result sit at block (t, 0), the weights at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 ∧ t.val < 20 :=
  (by decide +kernel : ∀ t : Fin grid0.N, _)

/-- Every block of rows is some point's. -/
theorem idx_onto : ∀ q0 : Fin 20, ∃ t : Fin cfg0.N, win0_3.index t = ![q0.val, 0] :=
  (by decide +kernel : ∀ q0 : Fin 20, ∃ t : Fin grid0.N, win0_3.index t = ![q0.val, 0])

/-- What point t writes back is block t of `scaled` of the three arrays as the call finds them. -/
theorem flushed_eq (c : Dev nD) (t : Fin cfg0.N) :
    (dat0 V c).flushed 3 t = ((cfg0.win 3).blk t).view.read (Elt Ideal)
      (scaled (V c main_arg0) (V c main_arg3) (V c main_v15)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz,
    View.ld_unit_zero (S := S5000x1) hz]
  obtain ⟨e00, e01, e10, e11, e20, e21, e30, e31, ht⟩ := idx_facts t
  funext j
  obtain ⟨p, q, rfl⟩ : ∃ (p : Fin 5000) (q : Fin 128), j = ix2 p q := ⟨j 0, j 1, eq_ix2 j⟩
  have hp : p.val < 5000 := p.isLt
  have hr : t.val * 5000 + p.val < 100000 := by omega
  have h0 : ∀ c' : Fin 128, iblk0 V c 0 t (ix2 p c') = V c main_arg0 (ix2 ⟨t.val * 5000 + p.val, hr⟩ c') := fun c' => by
    show V c main_arg0 (((cfg0.win 0).blk t).view.emb (ix2 p c')) = _
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * c'.val = c'.val; omega
  have h1 : ∀ c' : Fin 128, iblk0 V c 1 t (ix2 c' q) = V c main_arg3 (ix2 c' q) := fun c' => by
    show V c main_arg3 (((cfg0.win 1).blk t).view.emb (ix2 c' q)) = _
    refine congrArg (V c main_arg3) ?_
    funext a; apply Fin.ext
    match a with
    | ⟨0, _⟩ => show win0_1.index t (0 : Fin 2) * 128 + 1 * c'.val = c'.val; omega
    | ⟨1, _⟩ => show win0_1.index t (1 : Fin 2) * 128 + 1 * q.val = q.val; omega
  have h2 : iblk0 V c 2 t (ix2 p 0) = V c main_v15 (ix2 ⟨t.val * 5000 + p.val, hr⟩ 0) := by
    show V c main_v15 (((cfg0.win 2).blk t).view.emb (ix2 p 0)) = _
    refine congrArg (V c main_v15) ?_
    funext a; apply Fin.ext
    match a with
    | ⟨0, _⟩ => show win0_2.index t (0 : Fin 2) * 5000 + 1 * p.val = t.val * 5000 + p.val; omega
    | ⟨1, _⟩ => show win0_2.index t (1 : Fin 2) * 1 + 1 * 0 = 0; omega
  have h3 : ((cfg0.win 3).blk t).view.emb (ix2 p q) = ix2 ⟨t.val * 5000 + p.val, hr⟩ q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  show k0_pay1 (iblk0 V c 0 t) (iblk0 V c 1 t) (iblk0 V c 2 t) (ix2 p q)
    = scaled (V c main_arg0) (V c main_arg3) (V c main_v15) (((cfg0.win 3).blk t).view.emb (ix2 p q))
  refine (pay_apply _ _ _ p q).trans ?_
  rw [h3, scaled_apply, h2]
  unfold lin
  exact congrArg (· * _) (Finset.sum_congr rfl fun c' _ => by rw [h0 c', h1 c'])

/-- An index of the result is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v19).slice (win0_3.rect t)).set ↔ _
  rw [View.set_slice_whole, Rect.mem_set_unit]
  exact Iff.rfl

/-- Row r of the result is in the block of point r / 5000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The result array after the call. -/
theorem final (c : Dev nD) :
    (dat0 V c).arrAt 3 cfg0.N = scaled (V c main_arg0) (V c main_arg3) (V c main_v15) :=
  (dat0 V c).arrAt_eq_of_cover 3 _ (fun t _ => flushed_eq V c t) cover

end Cert.KernelIdeal.Region0

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.Region1.lean ====
/-
  The second pallas_call, as one function of whole arrays: the aggregated rows scaled by their node's number, the
  first layer's bias added, the rectifier applied.

  Point t of the 20 stages rows 5000·t … 5000·t + 4999 of the aggregated array and of the node column, and the bias row
  (block (0, 0) at every point). The body is pointwise but for two broadcasts: the column's entry p along row p, the
  bias row's entry q down lane q. So entry (p, q) of the block it writes back is max (a(p, q) · d(p) + b(q)) 0, and since
  every row of the result lies in exactly one point's block the result array IS `biasRelu A D B`.
-/
import proofs.«105244_j45346264711451_2_alg».proof.Proof.Gen.KernelIdeal.Frame
import proofs.«105244_j45346264711451_2_alg».proof.Proof.Spec
import proofs.«105244_j45346264711451_2_alg».proof.Proof.LibRowOps
import proofs.«105244_j45346264711451_2_alg».proof.Proof.LibRowVector
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q). -/
theorem pay_apply (x0 : Vec Ideal S5000x128 .f32) (x1 : Vec Ideal S5000x1 .f32) (x2 : Vec Ideal S1x128 .f32)
    (p : Fin 5000) (q : Fin 128) :
    k1_pay1 x0 x1 x2 (ix2 p q)
      = max (x0 (ix2 p q) * x1 (ix2 p 0) + x2 (ix2 0 q)) (Ideal.ofBits .f32 0x00000000#32) := by
  unfold k1_pay1
  refine (maximumf_apply _ _ _).trans ?_
  refine congrArg₂ max ?_ rfl
  refine (addf_apply _ _ _).trans ?_
  refine congrArg₂ (· + ·) ?_ ?_
  · refine (mulf_apply _ _ _).trans ?_
    refine congrArg₂ (· * ·) ?_ ?_
    · rw [shapeCast_self]
    · refine (RowOps.broadcastTo_a1_ab_apply _ _ p q).trans ?_
      rw [shapeCast_self]
  · refine (Cert.RowVector.broadcastTo_row (by norm_num) _ _ p q).trans ?_
    rw [shapeCast_self]

/-- The printed index maps over the grid: the row windows and the result sit at block (t, 0), the bias row at (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 20 :=
  (by decide +kernel : ∀ t : Fin grid1.N, _)

/-- Every block of rows is some point's. -/
theorem idx_onto : ∀ q0 : Fin 20, ∃ t : Fin cfg1.N, win1_3.index t = ![q0.val, 0] :=
  (by decide +kernel : ∀ q0 : Fin 20, ∃ t : Fin grid1.N, win1_3.index t = ![q0.val, 0])

/-- What point t writes back is block t of `biasRelu` of the three arrays as the call finds them. -/
theorem flushed_eq (c : Dev nD) (t : Fin cfg1.N) :
    (dat1 V c).flushed 3 t = ((cfg1.win 3).blk t).view.read (Elt Ideal)
      (biasRelu (V c main_v29) (V c main_v15) (V c main_v16)) := by
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz,
    View.ld_unit_zero (S := S1x128) hz]
  obtain ⟨e00, e01, e10, e11, e20, e21, e30, e31, ht⟩ := idx_facts t
  funext j
  obtain ⟨p, q, rfl⟩ : ∃ (p : Fin 5000) (q : Fin 128), j = ix2 p q := ⟨j 0, j 1, eq_ix2 j⟩
  have hp : p.val < 5000 := p.isLt
  have hr : t.val * 5000 + p.val < 100000 := by omega
  have h0 : iblk1 V c 0 t (ix2 p q) = V c main_v29 (ix2 ⟨t.val * 5000 + p.val, hr⟩ q) := by
    show V c main_v29 (((cfg1.win 0).blk t).view.emb (ix2 p q)) = _
    refine congrArg (V c main_v29) ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * q.val = q.val; omega
  have h1 : iblk1 V c 1 t (ix2 p 0) = V c main_v15 (ix2 ⟨t.val * 5000 + p.val, hr⟩ 0) := by
    show V c main_v15 (((cfg1.win 1).blk t).view.emb (ix2 p 0)) = _
    refine congrArg (V c main_v15) ?_
    funext a; apply Fin.ext
    match a with
    | ⟨0, _⟩ => show win1_1.index t (0 : Fin 2) * 5000 + 1 * p.val = t.val * 5000 + p.val; omega
    | ⟨1, _⟩ => show win1_1.index t (1 : Fin 2) * 1 + 1 * 0 = 0; omega
  have h2 : iblk1 V c 2 t (ix2 0 q) = V c main_v16 (ix2 0 q) := by
    show V c main_v16 (((cfg1.win 2).blk t).view.emb (ix2 0 q)) = _
    refine congrArg (V c main_v16) ?_
    funext a; apply Fin.ext
    match a with
    | ⟨0, _⟩ => show win1_2.index t (0 : Fin 2) * 1 + 1 * 0 = 0; omega
    | ⟨1, _⟩ => show win1_2.index t (1 : Fin 2) * 128 + 1 * q.val = q.val; omega
  have h3 : ((cfg1.win 3).blk t).view.emb (ix2 p q) = ix2 ⟨t.val * 5000 + p.val, hr⟩ q := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  show k1_pay1 (iblk1 V c 0 t) (iblk1 V c 1 t) (iblk1 V c 2 t) (ix2 p q)
    = biasRelu (V c main_v29) (V c main_v15) (V c main_v16) (((cfg1.win 3).blk t).view.emb (ix2 p q))
  refine (pay_apply _ _ _ p q).trans ?_
  rw [h3, biasRelu_apply, h0, h1, h2]

/-- An index of the result is in point t's block iff each coordinate is in the block's range on its axis. -/
theorem mem_blk (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v30).slice (win1_3.rect t)).set ↔ _
  rw [View.set_slice_whole, Rect.mem_set_unit]
  exact Iff.rfl

/-- Row r of the result is in the block of point r / 5000. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The result array after the call. -/
theorem final (c : Dev nD) :
    (dat1 V c).arrAt 3 cfg1.N = biasRelu (V c main_v29) (V c main_v15) (V c main_v16) :=
  (dat1 V c).arrAt_eq_of_cover 3 _ (fun t _ => flushed_eq V c t) cover

end Cert.KernelIdeal.Region1

end
-- ==== Proof.Region2.lean ====
/-
  The third pallas_call, as one function of whole arrays: the rows of X times W, each row scaled by its node's number.

  The call walks 20 grid points. Point t stages rows 5000·t … 5000·t + 4999 of X (all 128 lanes) and the same rows of the
  node column D, and the whole weight matrix W (its block index is (0, 0) at every point); the body multiplies the staged
  rows into W — the casts to a narrower float are the identity over the extended reals, and the accumulator starts
  at zero, so entry (p, q) of the product is ∑ c, x(p, c) · w(c, q) —, scales row p by the staged column's entry p, and
  writes the block back to the same rows of the result. Every row of the result lies in exactly one point's block
  (row r in point r / 5000), so the result array IS `scaled X W D`, whatever the three arrays held when the call began.
-/
import proofs.«105244_j45346264711451_2_alg».proof.Proof.Gen.KernelIdeal.Frame
import proofs.«105244_j45346264711451_2_alg».proof.Proof.Spec
import proofs.«105244_j45346264711451_2_alg».proof.Proof.LibPlainDot
import proofs.«105244_j45346264711451_2_alg».proof.Proof.LibRowOps
import Idealize.ShloMosaic.Lib.Pipeline.Value
import Idealize.ShloMosaic.Lib.ValueIdx

set_option maxRecDepth 16384

noncomputable section

open scoped BigOperators

namespace Cert.KernelIdeal.Region2

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q): row p of the staged rows against column q of the staged weights, times the
    staged column's entry p. -/
theorem pay_apply (x0 : Vec Ideal S5000x128 .f32) (x1 : Vec Ideal S128x128 .f32) (x2 : Vec Ideal S5000x1 .f32)
    (p : Fin 5000) (q : Fin 128) :
    k2_pay1 x0 x1 x2 (ix2 p q) = (∑ c : Fin 128, x0 (ix2 p c) * x1 (ix2 c q)) * x2 (ix2 p 0) := by
  unfold k2_pay1
  refine (mulf_apply _ _ _).trans ?_
  refine congrArg₂ (· * ·) ?_ ?_
  · refine (Cert.PlainDot.matmul_zero_apply dot_S5000x128_S128x128_S5000x128_1_0_0_1_n_n rfl none _ _ p q).trans ?_
    refine Finset.sum_congr rfl fun c' _ => congrArg (· * _) ?_
    show shapeCast S5000x128 x0 shapeCasts_S5000x128_S5000x128 (ix2 p c') = x0 (ix2 p c')
    rw [shapeCast_self]
  · refine (RowOps.broadcastTo_a1_ab_apply _ _ p q).trans ?_
    rw [shapeCast_self]

/-- The printed index maps over the grid: the row windows and the result sit at block (t, 0), the weights at (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 ∧ t.val < 20 :=
  (by decide +kernel : ∀ t : Fin grid2.N, _)

/-- Every block of rows is some point's. -/
theorem idx_onto : ∀ q0 : Fin 20, ∃ t : Fin cfg2.N, win2_3.index t = ![q0.val, 0] :=
  (by decide +kernel : ∀ q0 : Fin 20, ∃ t : Fin grid2.N, win2_3.index t = ![q0.val, 0])

/-- What point t writes back is block t of `scaled` of the three arrays as the call finds them. -/
theorem flushed_eq (c : Dev nD) (t : Fin cfg2.N) :
    (dat2 V c).flushed 3 t = ((cfg2.win 3).blk t).view.read (Elt Ideal)
      (scaled (V c main_v30) (V c main_arg5) (V c main_v15)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz,
    View.ld_unit_zero (S := S5000x1) hz]
  obtain ⟨e00, e01, e10, e11, e20, e21, e30, e31, ht⟩ := idx_facts t
  funext j
  obtain ⟨p, q, rfl⟩ : ∃ (p : Fin 5000) (q : Fin 128), j = ix2 p q := ⟨j 0, j 1, eq_ix2 j⟩
  have hp : p.val < 5000 := p.isLt
  have hr : t.val * 5000 + p.val < 100000 := by omega
  have h0 : ∀ c' : Fin 128, iblk2 V c 0 t (ix2 p c') = V c main_v30 (ix2 ⟨t.val * 5000 + p.val, hr⟩ c') := fun c' => by
    show V c main_v30 (((cfg2.win 0).blk t).view.emb (ix2 p c')) = _
    refine congrArg (V c main_v30) ?_
    funext a; apply Fin.ext
    match a with
    | ⟨0, _⟩ => show win2_0.index t (0 : Fin 2) * 5000 + 1 * p.val = t.val * 5000 + p.val; omega
    | ⟨1, _⟩ => show win2_0.index t (1 : Fin 2) * 128 + 1 * c'.val = c'.val; omega
  have h1 : ∀ c' : Fin 128, iblk2 V c 1 t (ix2 c' q) = V c main_arg5 (ix2 c' q) := fun c' => by
    show V c main_arg5 (((cfg2.win 1).blk t).view.emb (ix2 c' q)) = _
    refine congrArg (V c main_arg5) ?_
    funext a; apply Fin.ext
    match a with
    | ⟨0, _⟩ => show win2_1.index t (0 : Fin 2) * 128 + 1 * c'.val = c'.val; omega
    | ⟨1, _⟩ => show win2_1.index t (1 : Fin 2) * 128 + 1 * q.val = q.val; omega
  have h2 : iblk2 V c 2 t (ix2 p 0) = V c main_v15 (ix2 ⟨t.val * 5000 + p.val, hr⟩ 0) := by
    show V c main_v15 (((cfg2.win 2).blk t).view.emb (ix2 p 0)) = _
    refine congrArg (V c main_v15) ?_
    funext a; apply Fin.ext
    match a with
    | ⟨0, _⟩ => show win2_2.index t (0 : Fin 2) * 5000 + 1 * p.val = t.val * 5000 + p.val; omega
    | ⟨1, _⟩ => show win2_2.index t (1 : Fin 2) * 1 + 1 * 0 = 0; omega
  have h3 : ((cfg2.win 3).blk t).view.emb (ix2 p q) = ix2 ⟨t.val * 5000 + p.val, hr⟩ q := by
    funext a; apply Fin.ext
    match a with
    | ⟨0, _⟩ => show win2_3.index t (0 : Fin 2) * 5000 + 1 * p.val = t.val * 5000 + p.val; omega
    | ⟨1, _⟩ => show win2_3.index t (1 : Fin 2) * 128 + 1 * q.val = q.val; omega
  show k2_pay1 (iblk2 V c 0 t) (iblk2 V c 1 t) (iblk2 V c 2 t) (ix2 p q)
    = scaled (V c main_v30) (V c main_arg5) (V c main_v15) (((cfg2.win 3).blk t).view.emb (ix2 p q))
  refine (pay_apply _ _ _ p q).trans ?_
  rw [h3, scaled_apply, h2]
  unfold lin
  exact congrArg (· * _) (Finset.sum_congr rfl fun c' _ => by rw [h0 c', h1 c'])

/-- An index of the result is in point t's block iff each coordinate is in the block's range on its axis. -/
theorem mem_blk (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v31).slice (win2_3.rect t)).set ↔ _
  rw [View.set_slice_whole, Rect.mem_set_unit]
  exact Iff.rfl

/-- Row r of the result is in the block of point r / 5000. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := idx_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The result array after the call. -/
theorem final (c : Dev nD) :
    (dat2 V c).arrAt 3 cfg2.N = scaled (V c main_v30) (V c main_arg5) (V c main_v15) :=
  (dat2 V c).arrAt_eq_of_cover 3 _ (fun t _ => flushed_eq V c t) cover

end Cert.KernelIdeal.Region2

end
-- ==== Proof.Region3.lean ====
/-
  The fourth pallas_call, as one function of whole arrays: the aggregated rows scaled by their node's number, the
  second layer's bias added, the rectifier applied.

  Point t of the 20 stages rows 5000·t … 5000·t + 4999 of the aggregated array and of the node column, and the bias row
  (block (0, 0) at every point). The body is pointwise but for two broadcasts: the column's entry p along row p, the
  bias row's entry q down lane q. So entry (p, q) of the block it writes back is max (a(p, q) · d(p) + b(q)) 0, and since
  every row of the result lies in exactly one point's block the result array IS `biasRelu A D B`.
-/
import proofs.«105244_j45346264711451_2_alg».proof.Proof.Gen.KernelIdeal.Frame
import proofs.«105244_j45346264711451_2_alg».proof.Proof.Spec
import proofs.«105244_j45346264711451_2_alg».proof.Proof.LibRowOps
import proofs.«105244_j45346264711451_2_alg».proof.Proof.LibRowVector
import Idealize.ShloMosaic.Lib.Pipeline.Value
import Idealize.ShloMosaic.Lib.ValueIdx

set_option maxRecDepth 16384

noncomputable section

open scoped BigOperators

namespace Cert.KernelIdeal.Region3

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q). -/
theorem pay_apply (x0 : Vec Ideal S5000x128 .f32) (x1 : Vec Ideal S5000x1 .f32) (x2 : Vec Ideal S1x128 .f32)
    (p : Fin 5000) (q : Fin 128) :
    k3_pay1 x0 x1 x2 (ix2 p q)
      = max (x0 (ix2 p q) * x1 (ix2 p 0) + x2 (ix2 0 q)) (Ideal.ofBits .f32 0x00000000#32) := by
  unfold k3_pay1
  refine (maximumf_apply _ _ _).trans ?_
  refine congrArg₂ max ?_ rfl
  refine (addf_apply _ _ _).trans ?_
  refine congrArg₂ (· + ·) ?_ ?_
  · refine (mulf_apply _ _ _).trans ?_
    refine congrArg₂ (· * ·) ?_ ?_
    · rw [shapeCast_self]
    · refine (RowOps.broadcastTo_a1_ab_apply _ _ p q).trans ?_
      rw [shapeCast_self]
  · refine (Cert.RowVector.broadcastTo_row (by norm_num) _ _ p q).trans ?_
    rw [shapeCast_self]

/-- The printed index maps over the grid: the row windows and the result sit at block (t, 0), the bias row at (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 ∧ t.val < 20 :=
  (by decide +kernel : ∀ t : Fin grid3.N, _)

/-- Every block of rows is some point's. -/
theorem idx_onto : ∀ q0 : Fin 20, ∃ t : Fin cfg3.N, win3_3.index t = ![q0.val, 0] :=
  (by decide +kernel : ∀ q0 : Fin 20, ∃ t : Fin grid3.N, win3_3.index t = ![q0.val, 0])

/-- What point t writes back is block t of `biasRelu` of the three arrays as the call finds them. -/
theorem flushed_eq (c : Dev nD) (t : Fin cfg3.N) :
    (dat3 V c).flushed 3 t = ((cfg3.win 3).blk t).view.read (Elt Ideal)
      (biasRelu (V c main_v41) (V c main_v15) (V c main_v17)) := by
  show (cfg3.win 3).cut (grid3.coords t) ((dat3 V c).after 3 t) = _
  rw [after3_3]
  unfold out3_3
  rw [View.canon_unit_zero hz]
  simp only [View.ld_unit_zero (S := S5000x128) hz, View.ld_unit_zero (S := S5000x1) hz,
    View.ld_unit_zero (S := S1x128) hz]
  obtain ⟨e00, e01, e10, e11, e20, e21, e30, e31, ht⟩ := idx_facts t
  funext j
  obtain ⟨p, q, rfl⟩ : ∃ (p : Fin 5000) (q : Fin 128), j = ix2 p q := ⟨j 0, j 1, eq_ix2 j⟩
  have hp : p.val < 5000 := p.isLt
  have hr : t.val * 5000 + p.val < 100000 := by omega
  have h0 : iblk3 V c 0 t (ix2 p q) = V c main_v41 (ix2 ⟨t.val * 5000 + p.val, hr⟩ q) := by
    show V c main_v41 (((cfg3.win 0).blk t).view.emb (ix2 p q)) = _
    refine congrArg (V c main_v41) ?_
    funext a; apply Fin.ext
    match a with
    | ⟨0, _⟩ => show win3_0.index t (0 : Fin 2) * 5000 + 1 * p.val = t.val * 5000 + p.val; omega
    | ⟨1, _⟩ => show win3_0.index t (1 : Fin 2) * 128 + 1 * q.val = q.val; omega
  have h1 : iblk3 V c 1 t (ix2 p 0) = V c main_v15 (ix2 ⟨t.val * 5000 + p.val, hr⟩ 0) := by
    show V c main_v15 (((cfg3.win 1).blk t).view.emb (ix2 p 0)) = _
    refine congrArg (V c main_v15) ?_
    funext a; apply Fin.ext
    match a with
    | ⟨0, _⟩ => show win3_1.index t (0 : Fin 2) * 5000 + 1 * p.val = t.val * 5000 + p.val; omega
    | ⟨1, _⟩ => show win3_1.index t (1 : Fin 2) * 1 + 1 * 0 = 0; omega
  have h2 : iblk3 V c 2 t (ix2 0 q) = V c main_v17 (ix2 0 q) := by
    show V c main_v17 (((cfg3.win 2).blk t).view.emb (ix2 0 q)) = _
    refine congrArg (V c main_v17) ?_
    funext a; apply Fin.ext
    match a with
    | ⟨0, _⟩ => show win3_2.index t (0 : Fin 2) * 1 + 1 * 0 = 0; omega
    | ⟨1, _⟩ => show win3_2.index t (1 : Fin 2) * 128 + 1 * q.val = q.val; omega
  have h3 : ((cfg3.win 3).blk t).view.emb (ix2 p q) = ix2 ⟨t.val * 5000 + p.val, hr⟩ q := by
    funext a; apply Fin.ext
    match a with
    | ⟨0, _⟩ => show win3_3.index t (0 : Fin 2) * 5000 + 1 * p.val = t.val * 5000 + p.val; omega
    | ⟨1, _⟩ => show win3_3.index t (1 : Fin 2) * 128 + 1 * q.val = q.val; omega
  show k3_pay1 (iblk3 V c 0 t) (iblk3 V c 1 t) (iblk3 V c 2 t) (ix2 p q)
    = biasRelu (V c main_v41) (V c main_v15) (V c main_v17) (((cfg3.win 3).blk t).view.emb (ix2 p q))
  refine (pay_apply _ _ _ p q).trans ?_
  rw [h3, biasRelu_apply, h0, h1, h2]

/-- An index of the result is in point t's block iff each coordinate is in the block's range on its axis. -/
theorem mem_blk (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v42).slice (win3_3.rect t)).set ↔ _
  rw [View.set_slice_whole, Rect.mem_set_unit]
  exact Iff.rfl

/-- Row r of the result is in the block of point r / 5000. -/
theorem cover (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  obtain ⟨t, ht⟩ := idx_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The result array after the call. -/
theorem final (c : Dev nD) :
    (dat3 V c).arrAt 3 cfg3.N = biasRelu (V c main_v41) (V c main_v15) (V c main_v17) :=
  (dat3 V c).arrAt_eq_of_cover 3 _ (fun t _ => flushed_eq V c t) cover

end Cert.KernelIdeal.Region3

end
-- ==== Proof.Region4.lean ====
/-
  The fifth pallas_call, as one function of whole arrays: the hidden rows plus the projected input plus the projection's bias.

  Point t of the 20 stages rows 5000·t … 5000·t + 4999 of the hidden array H and of the input X, the whole projection
  matrix W and the bias row (both at block (0, 0) at every point). The body multiplies the staged input rows into W (casts
  to a narrower float are the identity over the extended reals, the accumulator starts at zero), adds the product to the
  staged hidden rows, then adds the bias row's entry q down lane q: entry (p, q) of the block it writes back is
  (h(p, q) + ∑ c, x(p, c) · w(c, q)) + b(q). Every row of the result lies in exactly one point's block, so the result
  array IS `residual H X W B`.
-/
import proofs.«105244_j45346264711451_2_alg».proof.Proof.Gen.KernelIdeal.Frame
import proofs.«105244_j45346264711451_2_alg».proof.Proof.Spec
import proofs.«105244_j45346264711451_2_alg».proof.Proof.LibPlainDot
import proofs.«105244_j45346264711451_2_alg».proof.Proof.LibRowVector
import Idealize.ShloMosaic.Lib.Pipeline.Value
import Idealize.ShloMosaic.Lib.ValueIdx

set_option maxRecDepth 16384

noncomputable section

open scoped BigOperators

namespace Cert.KernelIdeal.Region4

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q). Its loads come in the order input rows, weights, hidden rows, bias. -/
theorem pay_apply (xin : Vec Ideal S5000x128 .f32) (w : Vec Ideal S128x128 .f32) (h : Vec Ideal S5000x128 .f32)
    (b : Vec Ideal S1x128 .f32) (p : Fin 5000) (q : Fin 128) :
    k4_pay1 xin w h b (ix2 p q) = h (ix2 p q) + (∑ c : Fin 128, xin (ix2 p c) * w (ix2 c q)) + b (ix2 0 q) := by
  unfold k4_pay1
  refine (addf_apply _ _ _).trans ?_
  refine congrArg₂ (· + ·) ?_ ?_
  · refine (addf_apply _ _ _).trans ?_
    refine congrArg₂ (· + ·) ?_ ?_
    · rw [shapeCast_self]
    · exact Cert.PlainDot.matmul_zero_apply dot_S5000x128_S128x128_S5000x128_1_0_0_1_n_n rfl none _ _ p q
  · refine (Cert.RowVector.broadcastTo_row (by norm_num) _ _ p q).trans ?_
    rw [shapeCast_self]

/-- The printed index maps over the grid: the two row windows and the result sit at block (t, 0), the weights and the
    bias row at (0, 0). -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 ∧ t.val < 20 :=
  (by decide +kernel : ∀ t : Fin grid4.N, _)

/-- Every block of rows is some point's. -/
theorem idx_onto : ∀ q0 : Fin 20, ∃ t : Fin cfg4.N, win4_4.index t = ![q0.val, 0] :=
  (by decide +kernel : ∀ q0 : Fin 20, ∃ t : Fin grid4.N, win4_4.index t = ![q0.val, 0])

/-- What point t writes back is block t of `residual` of the four arrays as the call finds them. -/
theorem flushed_eq (c : Dev nD) (t : Fin cfg4.N) :
    (dat4 V c).flushed 4 t = ((cfg4.win 4).blk t).view.read (Elt Ideal)
      (residual (V c main_v42) (V c main_arg0) (V c main_arg7) (V c main_v18)) := by
  show (cfg4.win 4).cut (grid4.coords t) ((dat4 V c).after 4 t) = _
  rw [after4_4]
  unfold out4_4
  rw [View.canon_unit_zero hz]
  simp only [View.ld_unit_zero (S := S5000x128) hz, View.ld_unit_zero (S := S128x128) hz,
    View.ld_unit_zero (S := S1x128) hz]
  obtain ⟨e00, e01, e10, e11, e20, e21, e30, e31, e40, e41, ht⟩ := idx_facts t
  funext j
  obtain ⟨p, q, rfl⟩ : ∃ (p : Fin 5000) (q : Fin 128), j = ix2 p q := ⟨j 0, j 1, eq_ix2 j⟩
  have hp : p.val < 5000 := p.isLt
  have hr : t.val * 5000 + p.val < 100000 := by omega
  have h0 : iblk4 V c 0 t (ix2 p q) = V c main_v42 (ix2 ⟨t.val * 5000 + p.val, hr⟩ q) := by
    show V c main_v42 (((cfg4.win 0).blk t).view.emb (ix2 p q)) = _
    refine congrArg (V c main_v42) ?_
    funext a; apply Fin.ext
    match a with
    | ⟨0, _⟩ => show win4_0.index t (0 : Fin 2) * 5000 + 1 * p.val = t.val * 5000 + p.val; omega
    | ⟨1, _⟩ => show win4_0.index t (1 : Fin 2) * 128 + 1 * q.val = q.val; omega
  have h1 : ∀ c' : Fin 128, iblk4 V c 1 t (ix2 p c') = V c main_arg0 (ix2 ⟨t.val * 5000 + p.val, hr⟩ c') := fun c' => by
    show V c main_arg0 (((cfg4.win 1).blk t).view.emb (ix2 p c')) = _
    refine congrArg (V c main_arg0) ?_
    funext a; apply Fin.ext
    match a with
    | ⟨0, _⟩ => show win4_1.index t (0 : Fin 2) * 5000 + 1 * p.val = t.val * 5000 + p.val; omega
    | ⟨1, _⟩ => show win4_1.index t (1 : Fin 2) * 128 + 1 * c'.val = c'.val; omega
  have h2 : ∀ c' : Fin 128, iblk4 V c 2 t (ix2 c' q) = V c main_arg7 (ix2 c' q) := fun c' => by
    show V c main_arg7 (((cfg4.win 2).blk t).view.emb (ix2 c' q)) = _
    refine congrArg (V c main_arg7) ?_
    funext a; apply Fin.ext
    match a with
    | ⟨0, _⟩ => show win4_2.index t (0 : Fin 2) * 128 + 1 * c'.val = c'.val; omega
    | ⟨1, _⟩ => show win4_2.index t (1 : Fin 2) * 128 + 1 * q.val = q.val; omega
  have h3 : iblk4 V c 3 t (ix2 0 q) = V c main_v18 (ix2 0 q) := by
    show V c main_v18 (((cfg4.win 3).blk t).view.emb (ix2 0 q)) = _
    refine congrArg (V c main_v18) ?_
    funext a; apply Fin.ext
    match a with
    | ⟨0, _⟩ => show win4_3.index t (0 : Fin 2) * 1 + 1 * 0 = 0; omega
    | ⟨1, _⟩ => show win4_3.index t (1 : Fin 2) * 128 + 1 * q.val = q.val; omega
  have h4 : ((cfg4.win 4).blk t).view.emb (ix2 p q) = ix2 ⟨t.val * 5000 + p.val, hr⟩ q := by
    funext a; apply Fin.ext
    match a with
    | ⟨0, _⟩ => show win4_4.index t (0 : Fin 2) * 5000 + 1 * p.val = t.val * 5000 + p.val; omega
    | ⟨1, _⟩ => show win4_4.index t (1 : Fin 2) * 128 + 1 * q.val = q.val; omega
  show k4_pay1 (iblk4 V c 1 t) (iblk4 V c 2 t) (iblk4 V c 0 t) (iblk4 V c 3 t) (ix2 p q)
    = residual (V c main_v42) (V c main_arg0) (V c main_arg7) (V c main_v18) (((cfg4.win 4).blk t).view.emb (ix2 p q))
  refine (pay_apply _ _ _ _ p q).trans ?_
  rw [h4, residual_apply, h0, h3]
  unfold lin
  exact congrArg₂ (fun a b : EReal => a + b)
    (congrArg₂ (fun a b : EReal => a + b) rfl (Finset.sum_congr rfl fun c' _ => by rw [h1 c', h2 c'])) rfl

/-- An index of the result is in point t's block iff each coordinate is in the block's range on its axis. -/
theorem mem_blk (t : Fin cfg4.N) (i : S100000x128.Idx) :
    i ∈ ((cfg4.win 4).blk t).view.set ↔ ∀ a : Fin 2, win4_4.index t a * S5000x128.size a ≤ (i a).val
      ∧ (i a).val < win4_4.index t a * S5000x128.size a + S5000x128.size a := by
  show i ∈ ((View.whole main_v43).slice (win4_4.rect t)).set ↔ _
  rw [View.set_slice_whole, Rect.mem_set_unit]
  exact Iff.rfl

/-- Row r of the result is in the block of point r / 5000. -/
theorem cover (i : S100000x128.Idx) :
    ∃ t : Fin cfg4.N, (cfg4.win 4).flush t = true ∧ i ∈ ((cfg4.win 4).blk t).view.set := by
  have hi0 : (i 0).val < 100000 := (i 0).isLt
  have hi1 : (i 1).val < 128 := (i 1).isLt
  obtain ⟨t, ht⟩ := idx_onto ⟨(i 0).val / 5000, by omega⟩
  have q0 : win4_4.index t (0 : Fin 2) = (i 0).val / 5000 := congrFun ht 0
  have q1 : win4_4.index t (1 : Fin 2) = 0 := congrFun ht 1
  refine ⟨t, flush4_4 t, ?_⟩
  rw [mem_blk]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 128 ≤ (i 1).val ∧ (i 1).val < win4_4.index t (1 : Fin 2) * 128 + 128; omega

/-- The result array after the call. -/
theorem final (c : Dev nD) :
    (dat4 V c).arrAt 4 cfg4.N = residual (V c main_v42) (V c main_arg0) (V c main_arg7) (V c main_v18) :=
  (dat4 V c).arrAt_eq_of_cover 4 _ (fun t _ => flushed_eq V c t) cover

end Cert.KernelIdeal.Region4

end
-- ==== Proof.LibEdgeSums.lean ====
/-
  Finite sums of extended reals against one nonnegative finite factor, and the aggregation step of a normalised
  graph convolution.

  * `sum_mul_of_nonneg_of_ne_top`: (∑ i, f i) · x = ∑ i, f i · x for 0 ≤ x ≠ ⊤ and ANY extended reals f i (the
    extended reals do not distribute in general; they do against a nonnegative finite factor).
  * `aggregate_scale`: messages h(g n) · d(g n) summed over the edges n landing on a node k and then scaled by d(k)
    are the messages h(g n) · (d(g n) · d(g' n)) summed over the same edges, when g' n = k on every landing edge.
-/
import Mathlib.Data.EReal.Inv
import Mathlib.Algebra.BigOperators.Group.Finset.Basic

open scoped BigOperators

namespace Cert.EdgeSums

/-- A finite sum of extended reals times a nonnegative finite factor is the sum of the products. -/
theorem sum_mul_of_nonneg_of_ne_top {ι : Type*} (s : Finset ι) (f : ι → EReal) {x : EReal} (h0 : 0 ≤ x)
    (ht : x ≠ ⊤) : (∑ i ∈ s, f i) * x = ∑ i ∈ s, f i * x := by
  classical
  induction s using Finset.induction_on with
  | empty => simp
  | insert a s ha ih =>
    rw [Finset.sum_insert ha, Finset.sum_insert ha, EReal.right_distrib_of_nonneg_of_ne_top h0 ht, ih]

/-- Scaling the aggregate at node k by d k is scaling every landing message by d of its own target. -/
theorem aggregate_scale {ι N : Type*} [Fintype ι] (land : ι → Prop) [DecidablePred land]
    (h d : N → EReal) (g g' : ι → N) (k : N) (hk0 : 0 ≤ d k) (hkt : d k ≠ ⊤)
    (hg' : ∀ n, land n → g' n = k) :
    (∑ n, if land n then h (g n) * d (g n) else 0) * d k
      = ∑ n, if land n then h (g n) * (d (g n) * d (g' n)) else 0 := by
  rw [sum_mul_of_nonneg_of_ne_top _ _ hk0 hkt]
  refine Finset.sum_congr rfl fun n _ => ?_
  by_cases hl : land n
  · rw [if_pos hl, if_pos hl, hg' n hl, mul_assoc]
  · rw [if_neg hl, if_neg hl, zero_mul]

end Cert.EdgeSums
-- ==== Proof.Law.lean ====
/-
  Two facts over the extended reals, with no array in sight.

  The node scale. A node's scale is d = 1/√deg where the degree is positive and 0 elsewhere. Over the extended reals the
  reciprocal root of a positive number is a nonnegative REAL: a positive real r goes to (√r)⁻¹, and +∞ goes to 0; only
  the argument 0 goes to +∞, and the guard excludes it. So 0 ≤ d ≠ +∞ whatever the degree is.

  The aggregation law. A node k collects the messages of the edges that land on it. Scaling every message by its
  source's d before the sum and the sum by d(k) afterwards gives the same number as scaling every message by
  d(source) · d(target) inside the sum: d(k) is a nonnegative real, so it distributes over the sum whatever the summands
  are (infinite ones included), products reassociate, and on a landing edge the target IS k.
-/
import proofs.«105244_j45346264711451_2_alg».proof.Proof.LibEdgeSums
import Idealize.ShloMosaic.PureOps.Ideal

noncomputable section

open scoped BigOperators

namespace Cert.Gcn

open Idealize.ShloMosaic

/-- The reciprocal root of a positive extended real is a nonnegative real. -/
theorem rsqrt_range {x : EReal} (hx : 0 < x) : 0 ≤ Ideal.rsqrt x ∧ Ideal.rsqrt x ≠ ⊤ := by
  induction x using EReal.rec with
  | bot => exact absurd hx (not_lt.mpr bot_le)
  | coe r =>
    have hr : 0 < r := by exact_mod_cast hx
    rw [Ideal.rsqrt_coe, if_neg (not_lt.mpr hr.le), if_neg hr.ne']
    exact ⟨by exact_mod_cast inv_nonneg.mpr (Real.sqrt_nonneg r), EReal.coe_ne_top _⟩
  | top => rw [Ideal.rsqrt_top]; exact ⟨le_rfl, EReal.zero_ne_top⟩

/-- The guarded reciprocal root — 1/√x where x is positive, 0 elsewhere — is a nonnegative real, for every x. -/
theorem guarded_range (x : EReal) :
    0 ≤ (if 0 < x then Ideal.rsqrt x else 0) ∧ (if 0 < x then Ideal.rsqrt x else 0) ≠ ⊤ := by
  split_ifs with h
  · exact rsqrt_range h
  · exact ⟨le_rfl, EReal.zero_ne_top⟩

/-- One node's aggregate: messages scaled at the source, summed from zero, then scaled at the target and the bias added,
    against messages scaled by both ends inside the sum. `land n` says edge `n` lands on node `k`; `g` is an edge's source
    and `g'` its target as the scale is looked up, which on a landing edge is `k`. -/
theorem layer_law {ι N : Type*} [Fintype ι] (land : ι → Prop) [DecidablePred land] (h d : N → EReal) (g g' : ι → N)
    (k : N) (b : EReal) (hk0 : 0 ≤ d k) (hkt : d k ≠ ⊤) (hg' : ∀ n, land n → g' n = k) :
    (0 + ∑ n, if land n then h (g n) * d (g n) else 0) * d k + b
      = (0 + ∑ n, if land n then h (g n) * (d (g n) * d (g' n)) else 0) + b := by
  rw [zero_add, zero_add, Cert.EdgeSums.aggregate_scale land h d g g' k hk0 hkt hg']

end Cert.Gcn

end
-- ==== Proof.LibScatterRows.lean ====
/-
  The landing index of an update for two row-scatter layouts, in closed form, and the accumulating scatter of rows
  re-indexed by the row number.

  * Rows (`resultIdx?_rows`): the operand is `K × C`, the updates are `N × C`, and each update row carries one start
    index. Update `(n, l)` lands at `(k, l')` exactly when the `n`-th start index, read as a signed integer, is `k` and
    `l' = l`: a row keeps its lane, and a start index outside `[0, K)` lands nowhere. Consequently
    (`hostScatterAdd_rows_apply`) the accumulated element `(k, l)` is the operand's element plus the sum, over the rows
    `n` whose start index is `k`, of the update's element `(n, l)`.
  * Row block (`resultIdx?_rowBlock`): an `R × Q` block written into a `P × Q` array at one start row, read off a
    one-element index vector. Update `(r, q)` lands at `(p, q')` exactly when the start row, read signed, plus `r` is
    `p` and `q' = q`.
-/
import Idealize.ShloMosaic.PureOps.ShapeOps
import Idealize.ShloMosaic.PureOps.Dims
import Idealize.ShloMosaic.PureOps.Ideal
import Idealize.ShloMosaic.Lib.ValueIdx

noncomputable section

open scoped BigOperators

namespace Cert.LibScatter

open Idealize.ShloMosaic Idealize.ShloMosaic.ValueIdx

variable {N K C P Q R w : Nat}

section Rows

variable (d : ScatterDims ⟨2, ![K, C]⟩ ⟨2, ![N, 1]⟩ ⟨2, ![N, C]⟩)
    (h1 : d.updateWindowDims = [1]) (h2 : d.insertedWindowDims = [0]) (h3 : d.scatterDimsToOperandDims = [0])
    (h4 : d.indexVectorDim = 1)

include h1 h2 h3 h4 in
/-- The start of update `j` on the row axis is its row's start index, read signed. -/
theorem start_rows0 (j : (⟨2, ![N, C]⟩ : Shape).Idx) (idx : IVec ⟨2, ![N, 1]⟩ w) :
    d.start j idx 0 = (idx (ix2 (j 0) 0)).toInt := by
  obtain ⟨uw, iw, sd, iv, wf⟩ := d
  subst h1 h2 h3 h4
  unfold ScatterDims.start
  rw [dif_pos (by simp)]
  congr 1
  congr 1
  funext b
  unfold ScatterDims.siIdx
  match b with
  | ⟨0, _⟩ => simp; rfl
  | ⟨1, _⟩ => simp; rfl

include h1 h2 h3 h4 in
/-- The lane axis has no start index: its start is zero. -/
theorem start_rows1 (j : (⟨2, ![N, C]⟩ : Shape).Idx) (idx : IVec ⟨2, ![N, 1]⟩ w) : d.start j idx 1 = 0 := by
  obtain ⟨uw, iw, sd, iv, wf⟩ := d
  subst h1 h2 h3 h4
  unfold ScatterDims.start
  rw [dif_neg]
  simp

include h1 h2 h3 h4 in
/-- The row axis is an inserted one: its window coordinate is zero. -/
theorem window_rows0 (j : (⟨2, ![N, C]⟩ : Shape).Idx) : d.window j 0 = 0 := by
  obtain ⟨uw, iw, sd, iv, wf⟩ := d
  subst h1 h2 h3 h4
  unfold ScatterDims.window
  rw [dif_neg]
  simp [ScatterDims.sKept, Shape.kept]

include h1 h2 h3 h4 in
/-- The lane axis is the window axis: the window coordinate is the update's lane. -/
theorem window_rows1 (j : (⟨2, ![N, C]⟩ : Shape).Idx) : d.window j 1 = (j 1).val := by
  obtain ⟨uw, iw, sd, iv, wf⟩ := d
  subst h1 h2 h3 h4
  unfold ScatterDims.window
  rw [dif_pos (by simp [ScatterDims.sKept, Shape.kept])]
  rfl

include h1 h2 h3 h4 in
/-- Update `(n, l)` lands at `(k, l')` exactly when row `n`'s start index, read signed, is `k` and `l' = l`. -/
theorem resultIdx?_rows (j : (⟨2, ![N, C]⟩ : Shape).Idx) (idx : IVec ⟨2, ![N, 1]⟩ w) (i : (⟨2, ![K, C]⟩ : Shape).Idx) :
    d.resultIdx? j idx = some i ↔ (idx (ix2 (j 0) 0)).toInt = ((i 0).val : Int) ∧ (i 1).val = (j 1).val := by
  have hs0 := start_rows0 d h1 h2 h3 h4 j idx
  have hs1 := start_rows1 d h1 h2 h3 h4 j idx
  have hw0 := window_rows0 d h1 h2 h3 h4 j
  have hw1 := window_rows1 d h1 h2 h3 h4 j
  have hi0 : (i 0).val < K := (i 0).isLt
  have hi1 : (i 1).val < C := (i 1).isLt
  have hj1 : (j 1).val < C := (j 1).isLt
  unfold ScatterDims.resultIdx?
  constructor
  · intro h
    split at h
    · rename_i hin
      have e := Option.some.inj h
      have e0 := congrArg Fin.val (congrFun e 0)
      have e1 := congrArg Fin.val (congrFun e 1)
      simp only [hs0, hw0, hs1, hw1] at e0 e1
      have g0 := (hin 0).1
      rw [hs0, hw0] at g0
      refine ⟨by omega, by omega⟩
    · exact absurd h (by simp)
  · rintro ⟨e0, e1⟩
    have hin : ∀ a, 0 ≤ d.start j idx a + ↑(d.window j a) ∧ d.start j idx a + ↑(d.window j a) < (⟨2, ![K, C]⟩ : Shape).size a := by
      intro a
      match a with
      | ⟨0, _⟩ =>
        show 0 ≤ d.start j idx 0 + ↑(d.window j 0) ∧ d.start j idx 0 + ↑(d.window j 0) < ((K : Nat) : Int)
        rw [hs0, hw0, e0]; omega
      | ⟨1, _⟩ =>
        show 0 ≤ d.start j idx 1 + ↑(d.window j 1) ∧ d.start j idx 1 + ↑(d.window j 1) < ((C : Nat) : Int)
        rw [hs1, hw1]; omega
    rw [dif_pos hin]
    congr 1
    funext a
    apply Fin.ext
    match a with
    | ⟨0, _⟩ =>
      show (d.start j idx 0 + ↑(d.window j 0)).toNat = (i 0).val
      rw [hs0, hw0, e0]; omega
    | ⟨1, _⟩ =>
      show (d.start j idx 1 + ↑(d.window j 1)).toNat = (i 1).val
      rw [hs1, hw1]; omega

include h1 h2 h3 h4 in
/-- The accumulated element `(k, l)` is the operand's element plus the sum of the updates' elements `(n, l)` over
    the rows `n` whose start index, read signed, is `k`. -/
theorem hostScatterAdd_rows_apply (x : (⟨2, ![K, C]⟩ : Shape).Idx → EReal) (idx : IVec ⟨2, ![N, 1]⟩ w)
    (upd : (⟨2, ![N, C]⟩ : Shape).Idx → EReal) (k : Fin K) (l : Fin C) :
    Ideal.hostScatterAdd d x idx upd (ix2 k l)
      = x (ix2 k l) + ∑ n : Fin N, if (idx (ix2 n 0)).toInt = (k.val : Int) then upd (ix2 n l) else 0 := by
  unfold Ideal.hostScatterAdd
  congr 1
  rw [Finset.sum_filter, sum_idx2]
  apply Finset.sum_congr rfl
  intro n _
  -- the landing condition of update (n, l') at (k, l): row n's start index is k, and l' = l
  have hcond : ∀ l' : Fin C, (d.resultIdx? (ix2 n l') idx = some (ix2 k l)) ↔
      ((idx (ix2 n 0)).toInt = (k.val : Int) ∧ l = l') := by
    intro l'
    rw [resultIdx?_rows d h1 h2 h3 h4]
    constructor
    · rintro ⟨a, b⟩; exact ⟨a, Fin.ext b⟩
    · rintro ⟨a, b⟩; exact ⟨a, congrArg Fin.val b⟩
  by_cases hA : (idx (ix2 n 0)).toInt = (k.val : Int)
  · rw [if_pos hA, Finset.sum_eq_single l]
    · rw [if_pos ((hcond l).2 ⟨hA, rfl⟩)]
    · intro l' _ hne
      rw [if_neg]
      intro h
      exact hne ((hcond l').1 h).2.symm
    · intro h
      exact absurd (Finset.mem_univ l) h
  · rw [if_neg hA]
    apply Finset.sum_eq_zero
    intro l' _
    rw [if_neg]
    intro h
    exact hA ((hcond l').1 h).1

end Rows

section RowBlock

variable (d : ScatterDims ⟨2, ![P, Q]⟩ ⟨1, ![1]⟩ ⟨2, ![R, Q]⟩)
    (h1 : d.updateWindowDims = [0, 1]) (h2 : d.insertedWindowDims = []) (h3 : d.scatterDimsToOperandDims = [0])
    (h4 : d.indexVectorDim = 0)

include h1 h2 h3 h4 in
/-- The start on the row axis is the one start index, read signed. -/
theorem start_rowBlock0 (j : (⟨2, ![R, Q]⟩ : Shape).Idx) (idx : IVec ⟨1, ![1]⟩ w) :
    d.start j idx 0 = (idx (ix1 0)).toInt := by
  obtain ⟨uw, iw, sd, iv, wf⟩ := d
  subst h1 h2 h3 h4
  unfold ScatterDims.start
  rw [dif_pos (by simp)]
  congr 1
  congr 1
  funext b
  unfold ScatterDims.siIdx
  match b with
  | ⟨0, _⟩ => simp; rfl

include h1 h2 h3 h4 in
/-- The lane axis has no start index: its start is zero. -/
theorem start_rowBlock1 (j : (⟨2, ![R, Q]⟩ : Shape).Idx) (idx : IVec ⟨1, ![1]⟩ w) : d.start j idx 1 = 0 := by
  obtain ⟨uw, iw, sd, iv, wf⟩ := d
  subst h1 h2 h3 h4
  unfold ScatterDims.start
  rw [dif_neg]
  simp

include h1 h2 h3 h4 in
/-- Both axes are window axes: on the row axis the window coordinate is the update's row. -/
theorem window_rowBlock0 (j : (⟨2, ![R, Q]⟩ : Shape).Idx) : d.window j 0 = (j 0).val := by
  obtain ⟨uw, iw, sd, iv, wf⟩ := d
  subst h1 h2 h3 h4
  unfold ScatterDims.window
  rw [dif_pos (by simp [ScatterDims.sKept, Shape.kept])]
  rfl

include h1 h2 h3 h4 in
/-- On the lane axis the window coordinate is the update's lane. -/
theorem window_rowBlock1 (j : (⟨2, ![R, Q]⟩ : Shape).Idx) : d.window j 1 = (j 1).val := by
  obtain ⟨uw, iw, sd, iv, wf⟩ := d
  subst h1 h2 h3 h4
  unfold ScatterDims.window
  rw [dif_pos (by simp [ScatterDims.sKept, Shape.kept])]
  rfl

include h1 h2 h3 h4 in
/-- Update `(r, q)` lands at `(p, q')` exactly when the start row, read signed, plus `r` is `p` and `q' = q`. -/
theorem resultIdx?_rowBlock (j : (⟨2, ![R, Q]⟩ : Shape).Idx) (idx : IVec ⟨1, ![1]⟩ w) (i : (⟨2, ![P, Q]⟩ : Shape).Idx) :
    d.resultIdx? j idx = some i ↔ (idx (ix1 0)).toInt + ((j 0).val : Int) = ((i 0).val : Int) ∧ (i 1).val = (j 1).val := by
  have hs0 := start_rowBlock0 d h1 h2 h3 h4 j idx
  have hs1 := start_rowBlock1 d h1 h2 h3 h4 j idx
  have hw0 := window_rowBlock0 d h1 h2 h3 h4 j
  have hw1 := window_rowBlock1 d h1 h2 h3 h4 j
  have hi0 : (i 0).val < P := (i 0).isLt
  have hi1 : (i 1).val < Q := (i 1).isLt
  have hj1 : (j 1).val < Q := (j 1).isLt
  unfold ScatterDims.resultIdx?
  constructor
  · intro h
    split at h
    · rename_i hin
      have e := Option.some.inj h
      have e0 := congrArg Fin.val (congrFun e 0)
      have e1 := congrArg Fin.val (congrFun e 1)
      simp only [hs0, hw0, hs1, hw1] at e0 e1
      have g0 := (hin 0).1
      rw [hs0, hw0] at g0
      refine ⟨by omega, by omega⟩
    · exact absurd h (by simp)
  · rintro ⟨e0, e1⟩
    have hin : ∀ a, 0 ≤ d.start j idx a + ↑(d.window j a) ∧ d.start j idx a + ↑(d.window j a) < (⟨2, ![P, Q]⟩ : Shape).size a := by
      intro a
      match a with
      | ⟨0, _⟩ =>
        show 0 ≤ d.start j idx 0 + ↑(d.window j 0) ∧ d.start j idx 0 + ↑(d.window j 0) < ((P : Nat) : Int)
        rw [hs0, hw0, e0]; omega
      | ⟨1, _⟩ =>
        show 0 ≤ d.start j idx 1 + ↑(d.window j 1) ∧ d.start j idx 1 + ↑(d.window j 1) < ((Q : Nat) : Int)
        rw [hs1, hw1]; omega
    rw [dif_pos hin]
    congr 1
    funext a
    apply Fin.ext
    match a with
    | ⟨0, _⟩ =>
      show (d.start j idx 0 + ↑(d.window j 0)).toNat = (i 0).val
      rw [hs0, hw0, e0]; omega
    | ⟨1, _⟩ =>
      show (d.start j idx 1 + ↑(d.window j 1)).toNat = (i 1).val
      rw [hs1, hw1]; omega

end RowBlock

end Cert.LibScatter
-- ==== Proof.LibScatterIdeal.lean ====
/-
  The host's accumulating scatter, read at the extended reals, is the exact sum: every operand element plus the
  updates that land on it, whatever the shapes and the dimension numbers.
-/
import Idealize.ShloMosaic.PureOps.Contract
import Idealize.ShloMosaic.PureOps.Ideal

noncomputable section

namespace Cert.LibScatter

open Idealize.ShloMosaic

/-- Over the extended reals the accumulating scatter is the operand plus the sum of the updates landing there. -/
theorem scatterAdd_ideal {s si u : Shape} {w : Nat} {φ : FTy} (d : ScatterDims s si u) (x : FVec Ideal s φ)
    (idx : IVec si w) (upd : FVec Ideal u φ) :
    Host.scatterAdd d x idx upd = Ideal.hostScatterAdd d x idx upd := rfl

end Cert.LibScatter

end
-- ==== Proof.LibGather.lean ====
/-
  The host's gather of rows, read at one element, for the two layouts an indexed read `x[idx]` along the leading axis
  lowers to when every start index is a one-element index vector (start indices of shape N × 1).

  * Rows (`gather_rows_apply`): the operand is K × C, the result N × C; the row axis is collapsed, the lane axis is the
    one offset axis, and the slice is one whole row. Result element (n, l) is the operand's element (r, l), where r is
    the n-th start index read as a signed integer and clamped into [0, K − 1].
  * Vector (`gather_vec_apply`): the operand is a vector of length K, the result a vector of length N; the one axis is
    collapsed and the slice is one entry. Result entry n is the operand's entry r, with r as above.

  The clamp is StableHLO's: a start index is moved into the range where the slice fits, so a negative word reads row 0
  and a word of K or more reads row K − 1.
-/
import Idealize.ShloMosaic.PureOps.ShapeOps
import Idealize.ShloMosaic.PureOps.Dims
import Idealize.ShloMosaic.Lib.ValueIdx

noncomputable section

namespace Cert.LibGather

open Idealize.ShloMosaic Idealize.ShloMosaic.ValueIdx

variable {N K C w : Nat}

section Rows

variable (d : GatherDims ⟨2, ![K, C]⟩ ⟨2, ![N, 1]⟩ ⟨2, ![N, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])

include h1 h2 h3 h4 h5 h6 h7 in
/-- On the row axis the slice starts at the row's start index, read signed and clamped into [0, K − 1]. -/
theorem start_rows0 (j : (⟨2, ![N, C]⟩ : Shape).Idx) (idx : IVec ⟨2, ![N, 1]⟩ w) :
    d.start j idx 0 = min (idx (ix2 (j 0) 0)).toInt.toNat (K - 1) := by
  obtain ⟨od, cd, ob, sb, sm, iv, ss, wf⟩ := d
  subst h1 h2 h3 h4 h5 h6 h7
  unfold GatherDims.start
  rw [dif_pos (by simp)]
  refine congrArg (fun z => min (idx z).toInt.toNat (K - 1)) ?_
  funext b
  unfold GatherDims.siIdx
  match b with
  | ⟨0, _⟩ => simp; rfl
  | ⟨1, _⟩ => simp; rfl

include h1 h2 h3 h4 h5 h6 h7 in
/-- The lane axis is not in the start index map: the slice starts at lane 0. -/
theorem start_rows1 (j : (⟨2, ![N, C]⟩ : Shape).Idx) (idx : IVec ⟨2, ![N, 1]⟩ w) : d.start j idx 1 = 0 := by
  obtain ⟨od, cd, ob, sb, sm, iv, ss, wf⟩ := d
  subst h1 h2 h3 h4 h5 h6 h7
  unfold GatherDims.start
  rw [dif_neg]
  simp

include h1 h2 h3 h4 h5 h6 h7 in
/-- The row axis is collapsed: no offset on it. -/
theorem offCoord_rows0 (j : (⟨2, ![N, C]⟩ : Shape).Idx) : d.offCoord j 0 = 0 := by
  obtain ⟨od, cd, ob, sb, sm, iv, ss, wf⟩ := d
  subst h1 h2 h3 h4 h5 h6 h7
  unfold GatherDims.offCoord
  rw [dif_neg]
  simp [GatherDims.sKept, Shape.kept]

include h1 h2 h3 h4 h5 h6 h7 in
/-- The lane axis is the offset axis: the offset is the result's lane. -/
theorem offCoord_rows1 (j : (⟨2, ![N, C]⟩ : Shape).Idx) : d.offCoord j 1 = (j 1).val := by
  obtain ⟨od, cd, ob, sb, sm, iv, ss, wf⟩ := d
  subst h1 h2 h3 h4 h5 h6 h7
  unfold GatherDims.offCoord
  rw [dif_pos (by simp [GatherDims.sKept, Shape.kept])]
  rfl

include h1 h2 h3 h4 h5 h6 h7 in
/-- THE ROW GATHER READ AT (n, l): the operand at row "start index n, read signed, clamped into [0, K − 1]", lane l. -/
theorem gather_rows_apply (hK : 0 < K) {α : Type} (x : (⟨2, ![K, C]⟩ : Shape).Idx → α) (idx : IVec ⟨2, ![N, 1]⟩ w)
    (n : Fin N) (l : Fin C) :
    Host.gather d x idx (ix2 n l) = x (ix2 ⟨min (idx (ix2 n 0)).toInt.toNat (K - 1), by omega⟩ l) := by
  have hs0 := start_rows0 d h1 h2 h3 h4 h5 h6 h7 (ix2 n l) idx
  have hs1 := start_rows1 d h1 h2 h3 h4 h5 h6 h7 (ix2 n l) idx
  have ho0 := offCoord_rows0 d h1 h2 h3 h4 h5 h6 h7 (ix2 n l)
  have ho1 := offCoord_rows1 d h1 h2 h3 h4 h5 h6 h7 (ix2 n l)
  have hb : ∀ a, d.batchCoord (ix2 n l) a = 0 := fun a =>
    d.batchCoord_eq_zero _ a (by rw [h3]; exact List.not_mem_nil)
  unfold Host.gather
  congr 1
  funext a
  refine Fin.ext ?_
  match a with
  | ⟨0, _⟩ =>
    show d.start (ix2 n l) idx 0 + d.batchCoord (ix2 n l) 0 + d.offCoord (ix2 n l) 0 = _
    rw [hs0, hb, ho0]; rfl
  | ⟨1, _⟩ =>
    show d.start (ix2 n l) idx 1 + d.batchCoord (ix2 n l) 1 + d.offCoord (ix2 n l) 1 = _
    rw [hs1, hb, ho1]; show 0 + 0 + l.val = l.val; omega

end Rows

section Vec

variable (d : GatherDims ⟨1, ![K]⟩ ⟨2, ![N, 1]⟩ ⟨1, ![N]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])

include h1 h2 h3 h4 h5 h6 h7 in
/-- On the vector's one axis the slice starts at the start index, read signed and clamped into [0, K − 1]. -/
theorem start_vec0 (j : (⟨1, ![N]⟩ : Shape).Idx) (idx : IVec ⟨2, ![N, 1]⟩ w) :
    d.start j idx 0 = min (idx (ix2 (j 0) 0)).toInt.toNat (K - 1) := by
  obtain ⟨od, cd, ob, sb, sm, iv, ss, wf⟩ := d
  subst h1 h2 h3 h4 h5 h6 h7
  unfold GatherDims.start
  rw [dif_pos (by simp)]
  refine congrArg (fun z => min (idx z).toInt.toNat (K - 1)) ?_
  funext b
  unfold GatherDims.siIdx
  match b with
  | ⟨0, _⟩ => simp; rfl
  | ⟨1, _⟩ => simp; rfl

include h1 h2 h3 h4 h5 h6 h7 in
/-- The one axis is collapsed: no offset on it. -/
theorem offCoord_vec0 (j : (⟨1, ![N]⟩ : Shape).Idx) : d.offCoord j 0 = 0 := by
  obtain ⟨od, cd, ob, sb, sm, iv, ss, wf⟩ := d
  subst h1 h2 h3 h4 h5 h6 h7
  unfold GatherDims.offCoord
  rw [dif_neg]
  simp [GatherDims.sKept, Shape.kept]

include h1 h2 h3 h4 h5 h6 h7 in
/-- THE VECTOR GATHER READ AT n: the operand at entry "start index n, read signed, clamped into [0, K − 1]". -/
theorem gather_vec_apply (hK : 0 < K) {α : Type} (x : (⟨1, ![K]⟩ : Shape).Idx → α) (idx : IVec ⟨2, ![N, 1]⟩ w)
    (n : Fin N) :
    Host.gather d x idx (ix1 n) = x (ix1 ⟨min (idx (ix2 n 0)).toInt.toNat (K - 1), by omega⟩) := by
  have hs0 := start_vec0 d h1 h2 h3 h4 h5 h6 h7 (ix1 n) idx
  have ho0 := offCoord_vec0 d h1 h2 h3 h4 h5 h6 h7 (ix1 n)
  have hb : ∀ a, d.batchCoord (ix1 n) a = 0 := fun a =>
    d.batchCoord_eq_zero _ a (by rw [h3]; exact List.not_mem_nil)
  unfold Host.gather
  congr 1
  funext a
  refine Fin.ext ?_
  match a with
  | ⟨0, _⟩ =>
    show d.start (ix1 n) idx 0 + d.batchCoord (ix1 n) 0 + d.offCoord (ix1 n) 0 = _
    rw [hs0, hb, ho0]; rfl

end Vec

end Cert.LibGather

end
-- ==== Proof.Layer.lean ====
/-
  One graph-convolution layer, in its two spellings, as an equation between whole arrays.

  The edge list has 1700000 entries. Entry n carries a SOURCE word and a TARGET word. The source word, read signed and
  clamped into the node range, names the row the message is taken from (`nodeOf`). The target word decides where the
  message LANDS: on node k exactly when the word, read signed, is k — a word outside the node range lands nowhere.

  Spelling K (scale the rows, aggregate, scale again):
      max ( (∑ over the entries landing on k of  (H·W)(src n, l) · d(src n)) · d(k) + b(l) ) 0
  Spelling R (scale each message by both ends, aggregate):
      max ( (∑ over the entries landing on k of  (H·W)(src n, l) · (d(src n) · d(tgt n))) + b(l) ) 0
  where tgt n is the node the TARGET word names when it is looked up like a source (read signed, clamped). On an entry
  that lands on k the target word is k itself, already in range, so tgt n = k; and d is a nonnegative real. These are
  the two hypotheses of the aggregation law, and under them the two arrays are equal at every node and lane.
-/
import proofs.«105244_j45346264711451_2_alg».proof.Proof.Spec
import proofs.«105244_j45346264711451_2_alg».proof.Proof.Law
import proofs.«105244_j45346264711451_2_alg».proof.Proof.LibScatterRows
import proofs.«105244_j45346264711451_2_alg».proof.Proof.LibScatterIdeal
import proofs.«105244_j45346264711451_2_alg».proof.Proof.LibGather
import proofs.«105244_j45346264711451_2_alg».proof.Proof.LibPlainDot
import Idealize.ShloMosaic.PureOps.Ideal.Laws
import Idealize.ShloMosaic.Lib.ValueIdx

noncomputable section

open scoped BigOperators

namespace Cert.Gcn

open Idealize.ShloMosaic Idealize.ShloMosaic.ValueIdx

/-- The messages: one row of 128 lanes per edge-list entry. -/
abbrev Msg : Shape := ⟨2, ![1700000, 128]⟩
/-- One word (or number) per edge-list entry, kept as a column. -/
abbrev EdgeCol : Shape := ⟨2, ![1700000, 1]⟩

/-- The node a word names when a row is looked up by it: read signed, clamped into the node range. -/
def nodeOf (w : BitVec 32) : Fin 100000 := ⟨min w.toInt.toNat (100000 - 1), by omega⟩

/-- An in-range word names itself. -/
theorem nodeOf_of_toInt {w : BitVec 32} {k : Fin 100000} (h : w.toInt = (k.val : Int)) : nodeOf w = k := by
  apply Fin.ext
  show min w.toInt.toNat (100000 - 1) = k.val
  have hk := k.isLt
  rw [h]; omega

section Layer

variable (sc : ScatterDims Feat EdgeCol Msg) (hs1 : sc.updateWindowDims = [1]) (hs2 : sc.insertedWindowDims = [0])
    (hs3 : sc.scatterDimsToOperandDims = [0]) (hs4 : sc.indexVectorDim = 1)
    (gr : GatherDims Feat EdgeCol Msg) (hg1 : gr.offsetDims = [1]) (hg2 : gr.collapsedSliceDims = [0])
    (hg3 : gr.operandBatchingDims = []) (hg4 : gr.startIndicesBatchingDims = []) (hg5 : gr.startIndexMap = [0])
    (hg6 : gr.indexVectorDim = 1) (hg7 : gr.sliceSizes = ![1, 128])

include hs1 hs2 hs3 hs4 hg1 hg2 hg3 hg4 hg5 hg6 hg7 in
/-- Rows looked up by the source words and accumulated at the target words, at node k and lane l: what the
    accumulator held there plus the looked-up rows' lane l over the entries whose target word is k. -/
theorem aggregate_apply (Z Y : Feat.Idx → EReal) (tgt src : IVec EdgeCol 32) (k : Fin 100000) (l : Fin 128) :
    Host.scatterAdd (F := Ideal) (φ := .f32) sc Z tgt (Host.gather gr Y src) (ix2 k l)
      = Z (ix2 k l) + ∑ n : Fin 1700000, if (tgt (ix2 n 0)).toInt = (k.val : Int)
          then Y (ix2 (nodeOf (src (ix2 n 0))) l) else 0 := by
  rw [Cert.LibScatter.scatterAdd_ideal, Cert.LibScatter.hostScatterAdd_rows_apply sc hs1 hs2 hs3 hs4]
  refine congrArg (Z (ix2 k l) + ·) (Finset.sum_congr rfl fun n _ => ?_)
  rw [Cert.LibGather.gather_rows_apply gr hg1 hg2 hg3 hg4 hg5 hg6 hg7 (by norm_num) Y src n l]
  rfl

include hs1 hs2 hs3 hs4 hg1 hg2 hg3 hg4 hg5 hg6 hg7 in
/-- The same with every looked-up row multiplied, entry by entry and lane by lane, by a factor array first. -/
theorem aggregate_mul_apply (Z Y : Feat.Idx → EReal) (Fc : Msg.Idx → EReal) (tgt src : IVec EdgeCol 32)
    (k : Fin 100000) (l : Fin 128) :
    Host.scatterAdd (F := Ideal) (φ := .f32) sc Z tgt (mulf (F := Ideal) (φ := .f32) (Host.gather gr Y src) Fc) (ix2 k l)
      = Z (ix2 k l) + ∑ n : Fin 1700000, if (tgt (ix2 n 0)).toInt = (k.val : Int)
          then Y (ix2 (nodeOf (src (ix2 n 0))) l) * Fc (ix2 n l) else 0 := by
  rw [Cert.LibScatter.scatterAdd_ideal, Cert.LibScatter.hostScatterAdd_rows_apply sc hs1 hs2 hs3 hs4]
  refine congrArg (Z (ix2 k l) + ·) (Finset.sum_congr rfl fun n _ => ?_)
  rw [mulf_apply, Cert.LibGather.gather_rows_apply gr hg1 hg2 hg3 hg4 hg5 hg6 hg7 (by norm_num) Y src n l]
  rfl

end Layer

/-! ## A landing entry looks its own node up -/

/-- A target word that lands on node k — read signed it is k, so it is not negative — passes the wrap of negative words
    unchanged, and looked up like a source it names k. -/
theorem look_of_land (w a : BitVec 32) {k : Fin 100000} (h : w.toInt = (k.val : Int)) :
    nodeOf (Scalar.select (IntOp.cmpi .slt w 0#32) a w) = k := by
  have hs : w.slt 0#32 = false := by
    apply Bool.eq_false_iff.mpr
    intro hs
    have h1 := BitVec.slt_iff_toInt_lt.mp hs
    rw [h, BitVec.toInt_zero] at h1
    omega
  have hn : IntOp.cmpi .slt w 0#32 = 0#1 := by
    show BitVec.ofBool (w.slt 0#32) = 0#1
    rw [hs]; rfl
  rw [hn, select_zero]
  exact nodeOf_of_toInt h

/-! ## The two spellings of a layer are one array -/

section Eq

variable (scK scR : ScatterDims Feat EdgeCol Msg)
    (hk1 : scK.updateWindowDims = [1]) (hk2 : scK.insertedWindowDims = [0])
    (hk3 : scK.scatterDimsToOperandDims = [0]) (hk4 : scK.indexVectorDim = 1)
    (hr1 : scR.updateWindowDims = [1]) (hr2 : scR.insertedWindowDims = [0])
    (hr3 : scR.scatterDimsToOperandDims = [0]) (hr4 : scR.indexVectorDim = 1)
    (grK grR : GatherDims Feat EdgeCol Msg)
    (gk1 : grK.offsetDims = [1]) (gk2 : grK.collapsedSliceDims = [0]) (gk3 : grK.operandBatchingDims = [])
    (gk4 : grK.startIndicesBatchingDims = []) (gk5 : grK.startIndexMap = [0]) (gk6 : grK.indexVectorDim = 1)
    (gk7 : grK.sliceSizes = ![1, 128])
    (gr1 : grR.offsetDims = [1]) (gr2 : grR.collapsedSliceDims = [0]) (gr3 : grR.operandBatchingDims = [])
    (gr4 : grR.startIndicesBatchingDims = []) (gr5 : grR.startIndexMap = [0]) (gr6 : grR.indexVectorDim = 1)
    (gr7 : grR.sliceSizes = ![1, 128])
    (dd : DotDims Feat Wt Feat) (hdd : dd = DotDims.plain 100000 128 128)

include hk1 hk2 hk3 hk4 hr1 hr2 hr3 hr4 gk1 gk2 gk3 gk4 gk5 gk6 gk7 gr1 gr2 gr3 gr4 gr5 gr6 gr7 hdd in
/-- Spelling K — rows scaled, aggregated, scaled again, bias, rectifier — equals spelling R — the product's rows looked
    up, each message scaled by both ends, aggregated, bias, rectifier — when the accumulators start at zero, the node
    column holds a nonnegative real d per node, the message factors are d(source) · d(looked-up target), the bias
    arrays hold the same row, and a landing entry's looked-up target is the node it lands on. -/
theorem layer_eq (H : Feat.Idx → EReal) (W : Wt.Idx → EReal) (Z ZZ BB : Feat.Idx → EReal) (D : NodeCol.Idx → EReal)
    (B : LaneRow.Idx → EReal) (NB : Msg.Idx → EReal) (tgt src : IVec EdgeCol 32) (d : Fin 100000 → EReal)
    (look : Fin 1700000 → Fin 100000)
    (hZ : ∀ i, Z i = 0) (hZZ : ∀ i, ZZ i = Ideal.ofBits .f32 0x00000000#32)
    (hD : ∀ k, D (ix2 k 0) = d k) (hd0 : ∀ k, 0 ≤ d k) (hdt : ∀ k, d k ≠ ⊤)
    (hNB : ∀ n l, NB (ix2 n l) = d (nodeOf (src (ix2 n 0))) * d (look n))
    (hBB : ∀ k l, BB (ix2 k l) = B (ix2 0 l))
    (hlook : ∀ n (k : Fin 100000), (tgt (ix2 n 0)).toInt = (k.val : Int) → look n = k) :
    biasRelu (Host.scatterAdd (F := Ideal) (φ := .f32) scK Z tgt (Host.gather grK (scaled H W D) src)) D B
      = maximumf (F := Ideal) (φ := .f32)
          (addf (F := Ideal) (φ := .f32)
            (Host.scatterAdd (F := Ideal) (φ := .f32) scR Z tgt
              (mulf (F := Ideal) (φ := .f32) (Host.gather grR (Host.dotGeneral (F := Ideal) (φ₁ := .f32) (φ₂ := .f32) dd none H W) src) NB))
            BB) ZZ := by
  funext i
  obtain ⟨k, l, rfl⟩ : ∃ (k : Fin 100000) (l : Fin 128), i = ix2 k l := ⟨i 0, i 1, eq_ix2 i⟩
  rw [biasRelu_apply, aggregate_apply scK hk1 hk2 hk3 hk4 grK gk1 gk2 gk3 gk4 gk5 gk6 gk7,
    maximumf_apply, addf_apply, aggregate_mul_apply scR hr1 hr2 hr3 hr4 grR gr1 gr2 gr3 gr4 gr5 gr6 gr7,
    hZZ, hZ, hBB, hD]
  have hL : ∀ n : Fin 1700000, scaled H W D (ix2 (nodeOf (src (ix2 n 0))) l)
      = lin H W (nodeOf (src (ix2 n 0))) l * d (nodeOf (src (ix2 n 0))) := fun n => by rw [scaled_apply, hD]
  have hR : ∀ n : Fin 1700000,
      Host.dotGeneral (F := Ideal) (φ₁ := .f32) (φ₂ := .f32) dd none H W (ix2 (nodeOf (src (ix2 n 0))) l) * NB (ix2 n l)
      = lin H W (nodeOf (src (ix2 n 0))) l * (d (nodeOf (src (ix2 n 0))) * d (look n)) := fun n => by
    rw [hNB]
    exact congrArg (· * _) (Cert.PlainDot.dotGeneral_apply dd hdd none _ H W _ l)
  simp only [hL, hR]
  have key := layer_law (fun n : Fin 1700000 => (tgt (ix2 n 0)).toInt = (k.val : Int))
    (fun r => lin H W r l) d (fun n => nodeOf (src (ix2 n 0))) look k (B (ix2 0 l)) (hd0 k) (hdt k)
    (fun n hn => hlook n k hn)
  rw [key]

end Eq

end Cert.Gcn

end
-- ==== Proof.LibColumnInDim.lean ====
/-
  A per-row vector carried to a matrix by the host's `broadcast_in_dim`, read at an entry.

  * `broadcastInDim_column`: a length-a vector broadcast along axis 0 into an a×1 column holds, at (i, u), the
    vector's entry i.
  * `broadcastInDim_lanes`: an a×1 column broadcast along both axes into a×b holds, at (p, c), the column's entry
    of row p, whatever the lane c.
  * `shapeCast_column` and `shapeCast_eq_broadcastInDim`: a reshape of the vector to a×1 holds the same entries,
    so the reshape and the broadcast are one array.
-/
import Idealize.ShloMosaic.Lib.Pipeline.Value
import Idealize.ShloMosaic.Lib.ValueIdx

noncomputable section

namespace Cert.ColumnInDim

open Idealize.ShloMosaic Idealize.ShloMosaic.ValueIdx

variable {α : Type} {a b : Nat}

/-- The vector broadcast along axis 0 into an a×1 column, at (i, u): the vector at i. -/
theorem broadcastInDim_column (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) :=
  broadcastInDim_apply _ h x (ix2 i u) (ix1 i) (fun ax => match ax with
    | ⟨0, _⟩ => by
      show i.val = if a = 1 then 0 else i.val
      split
      · have := i.isLt; omega
      · rfl)

/-- The column broadcast along both axes into a×b, at (p, c): the column at (p, 0). -/
theorem broadcastInDim_lanes (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply _ h v (ix2 p c) (ix2 p (0 : Fin 1)) (fun ax => match ax with
    | ⟨0, _⟩ => by
      show p.val = if a = 1 then 0 else p.val
      split
      · have := p.isLt; omega
      · rfl
    | ⟨1, _⟩ => by
      show (0 : Nat) = if (1 : Nat) = 1 then 0 else c.val
      rw [if_pos rfl])

/-- The vector reshaped to an a×1 column, at (i, u): the vector at i. -/
theorem shapeCast_column (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- So the reshape and the broadcast are one array. -/
theorem shapeCast_eq_broadcastInDim (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [shapeCast_column, broadcastInDim_column]

end Cert.ColumnInDim

end
-- ==== Proof.LibRowInDim.lean ====
/-
  A 1×n row copied to every row of an R×n matrix by a host broadcast along both axes, read at an entry.

  `broadcast_in_dim` with dims = [0, 1] from 1×n to R×n copies along the operand's unit axis 0 and keeps axis 1
  (for n ≠ 1, where axis 1 is not itself a unit axis): entry (p, k) of the result is the row's entry (0, k).
-/
import Idealize.ShloMosaic.Lib.Pipeline.Value
import Idealize.ShloMosaic.Lib.ValueIdx

noncomputable section

namespace Cert.RowInDim

open Idealize.ShloMosaic Idealize.ShloMosaic.ValueIdx

variable {α : Type} {R n : Nat}

/-- The row broadcast along both axes into R×n, at (p, k): the row at (0, k). -/
theorem broadcastInDim_rows (hn : n ≠ 1) (v : (⟨2, ![1, n]⟩ : Shape).Idx → α)
    (h : (⟨2, ![1, n]⟩ : Shape).BroadcastsInDim ⟨2, ![R, n]⟩ (![0, 1] : Fin 2 → Fin 2)) (p : Fin R) (k : Fin n) :
    broadcastInDim ⟨2, ![R, n]⟩ ![0, 1] h v (ix2 p k) = v (ix2 0 k) :=
  broadcastInDim_apply _ h v (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

end Cert.RowInDim

end
-- ==== Proof.LibRowOfVector.lean ====
/-
  Two spellings of a length-n vector laid out as a 1×n row.

  A reshape of the vector to 1×n and a broadcast of it along axis 1 into a 1×n array are the same array: both hold,
  at (0, k), the vector's entry k (for n ≠ 1, where the broadcast does not copy along the vector's own axis).
-/
import Idealize.ShloMosaic.Lib.Pipeline.Value
import Idealize.ShloMosaic.Lib.ValueIdx

noncomputable section

namespace Cert.RowOfVector

open Idealize.ShloMosaic Idealize.ShloMosaic.ValueIdx

variable {α : Type} {n : Nat}

/-- The vector broadcast along axis 1 into a 1×n row, at (0, k): the vector at k. -/
theorem broadcastInDim_row (hn : n ≠ 1) (x : (⟨1, ![n]⟩ : Shape).Idx → α)
    (h : (⟨1, ![n]⟩ : Shape).BroadcastsInDim ⟨2, ![1, n]⟩ (![1] : Fin 1 → Fin 2)) (z : Fin 1) (k : Fin n) :
    broadcastInDim ⟨2, ![1, n]⟩ ![1] h x (ix2 z k) = x (ix1 k) :=
  broadcastInDim_apply _ h x (ix2 z k) (ix1 k) (fun a => match a with
    | ⟨0, _⟩ => by
      show k.val = if n = 1 then 0 else k.val
      rw [if_neg hn])

/-- The vector reshaped to a 1×n row, at (0, k): the vector at k. -/
theorem shapeCast_row (x : (⟨1, ![n]⟩ : Shape).Idx → α)
    (h : (⟨1, ![n]⟩ : Shape).ShapeCasts ⟨2, ![1, n]⟩) (z : Fin 1) (k : Fin n) :
    shapeCast ⟨2, ![1, n]⟩ x h (ix2 z k) = x (ix1 k) :=
  shapeCast_apply x h (ix2 z k) (ix1 k) (by
    rw [Shape.rowMajor_val_two, Shape.rowMajor_val_one]
    show k.val = z.val * n + k.val
    have hz : z.val = 0 := by have := z.isLt; omega
    rw [hz]; omega)

/-- So the reshape and the broadcast are one array. -/
theorem shapeCast_eq_broadcastInDim (hn : n ≠ 1) (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, k, rfl⟩ : ∃ (z : Fin 1) (k : Fin n), j = ix2 z k := ⟨j 0, j 1, eq_ix2 j⟩
  rw [shapeCast_row, broadcastInDim_row hn]

end Cert.RowOfVector

end
-- ==== Proof.Model.lean ====
/-
  The whole two-layer network in its two spellings, as one equation between arrays.

  The degree array is arbitrary: the node scale is d = 1/√deg where deg is positive and 0 elsewhere (`guard`), which is a
  nonnegative real for every deg. The edge list is a vector of source words and a vector of target words. A row is
  looked up by a word after negative words have been wrapped by the node count (`wrap`: a column of words w, or
  w + 100000 where w is negative); the aggregation lands a message at its raw target word.

    spelling K:  h₁ = biasRelu (aggregate (scaled x W₁ d)) d b₁,  h₂ = biasRelu (aggregate (scaled h₁ W₂ d)) d b₂,
                 out = (h₂ + x·Wp) + bp
    spelling R:  h₁ = max (aggregate ((x·W₁)[src] · (d[src] · d[tgt])) + b₁) 0,  h₂ likewise from h₁,
                 out = h₂ + (x·Wp + bp)

  Each layer is one array in both spellings (`layer_eq`: the scale is a nonnegative real, and an entry that lands on a node
  looks that node up), and the last line differs only in how the two additions are grouped.
-/
import proofs.«105244_j45346264711451_2_alg».proof.Proof.Layer
import proofs.«105244_j45346264711451_2_alg».proof.Proof.LibColumnInDim
import proofs.«105244_j45346264711451_2_alg».proof.Proof.LibRowVector
import proofs.«105244_j45346264711451_2_alg».proof.Proof.LibRowInDim
import proofs.«105244_j45346264711451_2_alg».proof.Proof.LibRowOfVector

noncomputable section

open scoped BigOperators

namespace Cert.Gcn

open Idealize.ShloMosaic Idealize.ShloMosaic.ValueIdx

/-- One word per edge-list entry. -/
abbrev EdgeVec : Shape := ⟨1, ![1700000]⟩
/-- One number per node. -/
abbrev NodeVec : Shape := ⟨1, ![100000]⟩
/-- One number per lane. -/
abbrev LaneVec : Shape := ⟨1, ![128]⟩
/-- A single number. -/
abbrev Sc : Shape := ⟨0, ![]⟩

section Net

variable (hbN : Sc.BroadcastsInDim NodeVec ![]) (hbE : Sc.BroadcastsInDim EdgeVec ![]) (hbF : Sc.BroadcastsInDim Feat ![])
    (hbc : EdgeVec.BroadcastsInDim EdgeCol ![0]) (hbd : NodeVec.BroadcastsInDim NodeCol ![0])
    (hbm : EdgeCol.BroadcastsInDim Msg ![0, 1]) (hbr : LaneVec.BroadcastsInDim LaneRow ![1])
    (hbf : LaneRow.BroadcastsInDim Feat ![0, 1]) (hsr : LaneVec.ShapeCasts LaneRow)

/-- The node scale: the reciprocal root of the degree where the degree is positive, zero elsewhere. -/
def guard (deg : FVec Ideal NodeVec .f32) : FVec Ideal NodeVec .f32 :=
  select (cmpf (F := Ideal) .ogt deg (broadcastInDim NodeVec ![] hbN (constant (F := Ideal) Sc .f32 0x00000000#32)))
    (Host.rsqrt deg) (broadcastInDim NodeVec ![] hbN (id (constant (F := Ideal) Sc .f32 0x00000000#32)))

/-- The node scale is a nonnegative real at every node, whatever the degrees are. -/
theorem guard_range (deg : FVec Ideal NodeVec .f32) (k : Fin 100000) :
    0 ≤ guard hbN deg (ix1 k) ∧ guard hbN deg (ix1 k) ≠ ⊤ := by
  have h := guarded_range (deg (ix1 k))
  have e : guard hbN deg (ix1 k) = if 0 < deg (ix1 k) then Ideal.rsqrt (deg (ix1 k)) else 0 := by
    unfold guard
    rw [select_apply, cmpf_apply]
    show Scalar.select (Ideal.cmp .ogt (deg (ix1 k)) (Ideal.ofBits .f32 0x00000000#32))
      (Ideal.rsqrt (deg (ix1 k))) (Ideal.ofBits .f32 0x00000000#32) = _
    rw [Ideal.ofBits_zero_f32]
    by_cases hp : 0 < deg (ix1 k)
    · rw [if_pos hp]
      have : Ideal.cmp .ogt (deg (ix1 k)) 0 = 1#1 := by simp [Ideal.cmp, hp]
      rw [this, select_one]
    · rw [if_neg hp]
      have : Ideal.cmp .ogt (deg (ix1 k)) 0 = 0#1 := by simp [Ideal.cmp, hp]
      rw [this, select_zero]
  rw [e]; exact h

/-- The words a row is looked up by: negative words wrapped by the node count, as a column. -/
def wrap (v : IVec EdgeVec 32) : IVec EdgeCol 32 :=
  broadcastInDim EdgeCol ![0] hbc
    (select (cmpi .slt v (broadcastInDim EdgeVec ![] hbE (constantI Sc 32 0#32)))
      (addi v (broadcastInDim EdgeVec ![] hbE (constantI Sc 32 100000#32))) v)

/-- An entry whose raw target word lands on node k looks node k up. -/
theorem wrap_of_land (v : IVec EdgeVec 32) (n : Fin 1700000) (k : Fin 100000)
    (h : (broadcastInDim EdgeCol ![0] hbc v (ix2 n 0)).toInt = (k.val : Int)) :
    nodeOf (wrap hbE hbc v (ix2 n 0)) = k := by
  rw [Cert.ColumnInDim.broadcastInDim_column] at h
  unfold wrap
  rw [Cert.ColumnInDim.broadcastInDim_column, select_apply]
  exact look_of_land (v (ix1 n)) _ h

/-- The accumulator the aggregation starts from. -/
def zeros : FVec Ideal Feat .f32 := broadcastInDim Feat ![] hbF (constant (F := Ideal) Sc .f32 0x00000000#32)

theorem zeros_apply (i : Feat.Idx) : zeros hbF i = 0 := by
  show Ideal.ofBits .f32 0x00000000#32 = 0
  exact Ideal.ofBits_zero_f32

variable (scK scR : ScatterDims Feat EdgeCol Msg)
    (hk1 : scK.updateWindowDims = [1]) (hk2 : scK.insertedWindowDims = [0])
    (hk3 : scK.scatterDimsToOperandDims = [0]) (hk4 : scK.indexVectorDim = 1)
    (hr1 : scR.updateWindowDims = [1]) (hr2 : scR.insertedWindowDims = [0])
    (hr3 : scR.scatterDimsToOperandDims = [0]) (hr4 : scR.indexVectorDim = 1)
    (grK grR : GatherDims Feat EdgeCol Msg)
    (gk1 : grK.offsetDims = [1]) (gk2 : grK.collapsedSliceDims = [0]) (gk3 : grK.operandBatchingDims = [])
    (gk4 : grK.startIndicesBatchingDims = []) (gk5 : grK.startIndexMap = [0]) (gk6 : grK.indexVectorDim = 1)
    (gk7 : grK.sliceSizes = ![1, 128])
    (gr1 : grR.offsetDims = [1]) (gr2 : grR.collapsedSliceDims = [0]) (gr3 : grR.operandBatchingDims = [])
    (gr4 : grR.startIndicesBatchingDims = []) (gr5 : grR.startIndexMap = [0]) (gr6 : grR.indexVectorDim = 1)
    (gr7 : grR.sliceSizes = ![1, 128])
    (gv : GatherDims NodeVec EdgeCol EdgeVec)
    (gv1 : gv.offsetDims = []) (gv2 : gv.collapsedSliceDims = [0]) (gv3 : gv.operandBatchingDims = [])
    (gv4 : gv.startIndicesBatchingDims = []) (gv5 : gv.startIndexMap = [0]) (gv6 : gv.indexVectorDim = 1)
    (gv7 : gv.sliceSizes = ![1])
    (dd : DotDims Feat Wt Feat) (hdd : dd = DotDims.plain 100000 128 128)

/-- One layer, spelling K. -/
def layerK (H : FVec Ideal Feat .f32) (W : FVec Ideal Wt .f32) (d : FVec Ideal NodeVec .f32) (tgtv srcv : IVec EdgeVec 32)
    (b : FVec Ideal LaneVec .f32) : FVec Ideal Feat .f32 :=
  biasRelu
    (Host.scatterAdd scK (zeros hbF) (broadcastInDim EdgeCol ![0] hbc tgtv)
      (Host.gather grK (scaled H W (broadcastInDim NodeCol ![0] hbd d)) (wrap hbE hbc srcv)))
    (broadcastInDim NodeCol ![0] hbd d) (shapeCast LaneRow b hsr)

/-- One layer, spelling R. -/
def layerR (H : FVec Ideal Feat .f32) (W : FVec Ideal Wt .f32) (d : FVec Ideal NodeVec .f32) (tgtv srcv : IVec EdgeVec 32)
    (b : FVec Ideal LaneVec .f32) : FVec Ideal Feat .f32 :=
  maximumf
    (addf
      (Host.scatterAdd scR (zeros hbF) (broadcastInDim EdgeCol ![0] hbc tgtv)
        (mulf (Host.gather grR (Host.dotGeneral dd none H W) (wrap hbE hbc srcv))
          (broadcastInDim Msg ![0, 1] hbm (broadcastInDim EdgeCol ![0] hbc
            (mulf (Host.gather gv d (wrap hbE hbc srcv)) (Host.gather gv d (wrap hbE hbc tgtv)))))))
      (broadcastInDim Feat ![0, 1] hbf (broadcastInDim LaneRow ![1] hbr b)))
    (zeros hbF)

include hk1 hk2 hk3 hk4 hr1 hr2 hr3 hr4 gk1 gk2 gk3 gk4 gk5 gk6 gk7 gr1 gr2 gr3 gr4 gr5 gr6 gr7 gv1 gv2 gv3 gv4 gv5 gv6 gv7 hdd in
/-- The two spellings of a layer are one array, for a scale that is a nonnegative real at every node. -/
theorem layer_KR (H : FVec Ideal Feat .f32) (W : FVec Ideal Wt .f32) (d : FVec Ideal NodeVec .f32)
    (tgtv srcv : IVec EdgeVec 32) (b : FVec Ideal LaneVec .f32)
    (hd0 : ∀ k : Fin 100000, 0 ≤ d (ix1 k)) (hdt : ∀ k : Fin 100000, d (ix1 k) ≠ ⊤) :
    layerK hbE hbF hbc hbd hsr scK grK H W d tgtv srcv b
      = layerR hbE hbF hbc hbm hbr hbf scR grR gv dd H W d tgtv srcv b := by
  unfold layerK layerR
  refine layer_eq scK scR hk1 hk2 hk3 hk4 hr1 hr2 hr3 hr4 grK grR gk1 gk2 gk3 gk4 gk5 gk6 gk7 gr1 gr2 gr3 gr4 gr5 gr6 gr7
    dd hdd H W (zeros hbF) (zeros hbF) _ _ _ _ _ _ (fun k => d (ix1 k)) (fun n => nodeOf (wrap hbE hbc tgtv (ix2 n 0)))
    (zeros_apply hbF) (fun i => by rw [zeros_apply, Ideal.ofBits_zero_f32]) ?_ hd0 hdt ?_ ?_ ?_
  · intro k
    exact Cert.ColumnInDim.broadcastInDim_column d hbd k 0
  · intro n l
    rw [Cert.ColumnInDim.broadcastInDim_lanes, Cert.ColumnInDim.broadcastInDim_column, mulf_apply,
      Cert.LibGather.gather_vec_apply gv gv1 gv2 gv3 gv4 gv5 gv6 gv7 (by norm_num) d _ n,
      Cert.LibGather.gather_vec_apply gv gv1 gv2 gv3 gv4 gv5 gv6 gv7 (by norm_num) d _ n]
    rfl
  · intro k l
    rw [Cert.RowInDim.broadcastInDim_rows (by norm_num), Cert.RowOfVector.broadcastInDim_row (by norm_num),
      Cert.RowVector.shapeCast_row]
  · intro n k h
    exact wrap_of_land hbE hbc tgtv n k h

end Net

end Cert.Gcn

end
-- ==== Proof.Fold.lean ====
/-
  The kernel program's result buffer, walked back through its ten segments to the arguments.

  Between the launch and the return the program alternates stretches of host operations with five pallas_calls. Each
  pallas_call leaves every buffer but its result as it found it, and its result is the call's one function of the
  arrays it was entered with (the five region modules). Each host stretch leaves every buffer it does not write, and
  what it writes is its operations' composition of what it reads. Reading the last boundary's contents at the result
  buffer backwards through these facts gives the whole network in spelling K, as a function of the launch memory:
  the edge words are two rows of the second argument joined with the self-loop identities, the degree is the
  accumulated count of target words, the node scale its guarded reciprocal root, and the rest is
  `residual (layerK (layerK x …) …) x …`.
-/
import proofs.«105244_j45346264711451_2_alg».proof.Proof.Gen.KernelIdeal.Frame
import proofs.«105244_j45346264711451_2_alg».proof.Proof.Region0
import proofs.«105244_j45346264711451_2_alg».proof.Proof.Region1
import proofs.«105244_j45346264711451_2_alg».proof.Proof.Region2
import proofs.«105244_j45346264711451_2_alg».proof.Proof.Region3
import proofs.«105244_j45346264711451_2_alg».proof.Proof.Region4
import proofs.«105244_j45346264711451_2_alg».proof.Proof.Model
import Idealize.ShloMosaic.Lib.StableHlo.Run

set_option maxRecDepth 16384

noncomputable section

namespace Cert.KernelIdeal.Fold

open Cert.KernelIdeal Cert.KernelIdeal.Gen Cert.Gcn
open Idealize.ShloMosaic Idealize.ShloMosaic.TcCoe Idealize.ShloMosaic.ValueIdx Idealize.SL.Sem

/-- A stretch of host operations leaves a buffer none of them writes. -/
macro "host_kept " ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

/-! ## The edge words and the node scale, of the edge-index argument -/

/-- The target words: row 1 of the edge-index argument, then the self loops 0, 1, …, 99999. -/
def tgtWords (e : IVec S2x1600000 32) : IVec S1700000 32 :=
  concatenate S1700000 0
    [⟨S1600000, shapeCast S1600000 (extractStridedSlice S1x1600000 ![1, 0] e slices_S2x1600000_S1x1600000_1_0) shapeCasts_S1x1600000_S1600000⟩,
     ⟨S100000, iotaInDim S100000 32 0⟩] concatenates_S1600000_S100000_S1700000_d0

/-- The source words: row 0 of the edge-index argument, then the self loops. -/
def srcWords (e : IVec S2x1600000 32) : IVec S1700000 32 :=
  concatenate S1700000 0
    [⟨S1600000, shapeCast S1600000 (extractStridedSlice S1x1600000 ![0, 0] e slices_S2x1600000_S1x1600000_0_0) shapeCasts_S1x1600000_S1600000⟩,
     ⟨S100000, iotaInDim S100000 32 0⟩] concatenates_S1600000_S100000_S1700000_d0

/-- The degrees: ones accumulated at the target words, from zero. -/
def degrees (e : IVec S2x1600000 32) : FVec Ideal S100000 .f32 :=
  Host.scatterAdd scatter_S100000_S1700000x1_S1700000_n_0_0_1
    (broadcastInDim S100000 ![] bcast_S_S100000 (constant (F := Ideal) S_ .f32 0x00000000#32))
    (broadcastInDim S1700000x1 ![0] bcast_S1700000_S1700000x1_0 (tgtWords e))
    (broadcastInDim S1700000 ![] bcast_S_S1700000 (constant (F := Ideal) S_ .f32 0x3F800000#32))

/-- Rows looked up at the wrapped source words and accumulated at the target words, from zero. -/
def aggregate (tgtv srcv : IVec S1700000 32) (Y : FVec Ideal S100000x128 .f32) : FVec Ideal S100000x128 .f32 :=
  Host.scatterAdd scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 tgtv)
    (Host.gather gather_S100000x128_S1700000x1_S1700000x128_1_0_n_n_0_1_1128 Y
      (broadcastInDim S1700000x1 ![0] bcast_S1700000_S1700000x1_0
        (select (cmpi .slt srcv (broadcastInDim S1700000 ![] bcast_S_S1700000 (constantI S_ 32 0#32)))
          (addi srcv (broadcastInDim S1700000 ![] bcast_S_S1700000 (constantI S_ 32 100000#32))) srcv)))

/-! ## What the host stretches write, over any contents they start from -/

section Host

variable (Wp : Valuation τ sig (Elt Ideal))

/-- The aggregation after the first pallas_call. -/
theorem host1_v29 : StableHlo.after hostOps1 Wp (Proc.devRef .tc main_v29)
    = aggregate (Wp (Proc.devRef .tc main_v6)) (Wp (Proc.devRef .tc main_v3)) (Wp (Proc.devRef .tc main_v19)) := by
  unfold aggregate
  after_results

/-- The aggregation after the third pallas_call. -/
theorem host3_v41 : StableHlo.after hostOps3 Wp (Proc.devRef .tc main_v41)
    = aggregate (Wp (Proc.devRef .tc main_v6)) (Wp (Proc.devRef .tc main_v3)) (Wp (Proc.devRef .tc main_v31)) := by
  unfold aggregate
  after_results

/-- The first stretch: the comparison of the degrees with zero, -/
theorem first_v12 : StableHlo.after hostOps0 Wp (Proc.devRef .tc main_v12)
    = cmpf (F := Ideal) .ogt (degrees (Wp (Proc.devRef .tc main_arg1)))
        (broadcastInDim S100000 ![] bcast_S_S100000 (constant (F := Ideal) S_ .f32 0x00000000#32)) := by
  unfold degrees tgtWords
  after_results
  rfl

/-- their reciprocal roots, -/
theorem first_v13 : StableHlo.after hostOps0 Wp (Proc.devRef .tc main_v13)
    = Host.rsqrt (degrees (Wp (Proc.devRef .tc main_arg1))) := by
  unfold degrees tgtWords
  after_results
  rfl

/-- and the zero the guard falls back to. -/
theorem first_cst2 : StableHlo.after hostOps0 Wp (Proc.devRef .tc main_cst_2)
    = constant (F := Ideal) S_ .f32 0x00000000#32 := by
  after_results

/-- The second stretch (the outlined selection): the guarded choice between the two. -/
theorem second_v14 : StableHlo.after hostOps0_1 Wp (Proc.devRef .tc main_v14)
    = select (Wp (Proc.devRef .tc main_v12)) (Wp (Proc.devRef .tc main_v13))
        (broadcastInDim S100000 ![] bcast_S_S100000 (id (Wp (Proc.devRef .tc main_cst_2)))) := by
  after_results
  rfl

/-- The third stretch: the node scale kept as a column. -/
theorem third_v15 : StableHlo.after hostOps0_2 Wp (Proc.devRef .tc main_v15)
    = broadcastInDim S100000x1 ![0] bcast_S100000_S100000x1_0 (Wp (Proc.devRef .tc main_v14)) := by
  after_results

/-- The three stretches before the first pallas_call: the node column is the node scale of the degrees. -/
theorem entry_v15 : StableHlo.after hostOps0_2 (StableHlo.after hostOps0_1 (StableHlo.after hostOps0 Wp)) (Proc.devRef .tc main_v15)
    = broadcastInDim S100000x1 ![0] bcast_S100000_S100000x1_0
        (Cert.Gcn.guard bcast_S_S100000 (degrees (Wp (Proc.devRef .tc main_arg1)))) := by
  rw [third_v15, second_v14, first_v12, first_v13, first_cst2]
  rfl

set_option maxHeartbeats 4000000 in
theorem entry_v3 : StableHlo.after hostOps0_2 (StableHlo.after hostOps0_1 (StableHlo.after hostOps0 Wp)) (Proc.devRef .tc main_v3)
    = srcWords (Wp (Proc.devRef .tc main_arg1)) := by
  unfold srcWords
  after_results_simp <;> rfl

set_option maxHeartbeats 4000000 in
theorem entry_v6 : StableHlo.after hostOps0_2 (StableHlo.after hostOps0_1 (StableHlo.after hostOps0 Wp)) (Proc.devRef .tc main_v6)
    = tgtWords (Wp (Proc.devRef .tc main_arg1)) := by
  unfold tgtWords
  after_results_simp <;> rfl

set_option maxHeartbeats 4000000 in
theorem entry_v16 : StableHlo.after hostOps0_2 (StableHlo.after hostOps0_1 (StableHlo.after hostOps0 Wp)) (Proc.devRef .tc main_v16)
    = shapeCast S1x128 (Wp (Proc.devRef .tc main_arg4)) shapeCasts_S128_S1x128 := by
  after_results_simp <;> rfl

set_option maxHeartbeats 4000000 in
theorem entry_v17 : StableHlo.after hostOps0_2 (StableHlo.after hostOps0_1 (StableHlo.after hostOps0 Wp)) (Proc.devRef .tc main_v17)
    = shapeCast S1x128 (Wp (Proc.devRef .tc main_arg6)) shapeCasts_S128_S1x128 := by
  after_results_simp <;> rfl

set_option maxHeartbeats 4000000 in
theorem entry_v18 : StableHlo.after hostOps0_2 (StableHlo.after hostOps0_1 (StableHlo.after hostOps0 Wp)) (Proc.devRef .tc main_v18)
    = shapeCast S1x128 (Wp (Proc.devRef .tc main_arg8)) shapeCasts_S128_S1x128 := by
  after_results_simp <;> rfl

end Host

end Cert.KernelIdeal.Fold

end
-- ==== Proof.Network.lean ====
/-
  The two layers and the residual line put together: spelling K of the whole network equals spelling R.

  Both layers are rewritten from K to R by the layer equation (the first layer's output feeds the second, so the inner
  one is rewritten first). What is left is the last line, entry by entry: (h + x·Wp) + bp against h + (x·Wp + bp), where
  the host's matrix product at an entry is the same sum the pallas_call's product is, and the bias row reads the same
  number whether it was reshaped or broadcast into a row. Addition of extended reals is associative.
-/
import proofs.«105244_j45346264711451_2_alg».proof.Proof.Model

noncomputable section

open scoped BigOperators

namespace Cert.Gcn

open Idealize.ShloMosaic Idealize.ShloMosaic.ValueIdx

section Net

variable (hbN : Sc.BroadcastsInDim NodeVec ![]) (hbE : Sc.BroadcastsInDim EdgeVec ![]) (hbF : Sc.BroadcastsInDim Feat ![])
    (hbc : EdgeVec.BroadcastsInDim EdgeCol ![0]) (hbd : NodeVec.BroadcastsInDim NodeCol ![0])
    (hbm : EdgeCol.BroadcastsInDim Msg ![0, 1]) (hbr : LaneVec.BroadcastsInDim LaneRow ![1])
    (hbf : LaneRow.BroadcastsInDim Feat ![0, 1]) (hsr : LaneVec.ShapeCasts LaneRow)

variable (scK scR : ScatterDims Feat EdgeCol Msg)
    (hk1 : scK.updateWindowDims = [1]) (hk2 : scK.insertedWindowDims = [0])
    (hk3 : scK.scatterDimsToOperandDims = [0]) (hk4 : scK.indexVectorDim = 1)
    (hr1 : scR.updateWindowDims = [1]) (hr2 : scR.insertedWindowDims = [0])
    (hr3 : scR.scatterDimsToOperandDims = [0]) (hr4 : scR.indexVectorDim = 1)
    (grK grR : GatherDims Feat EdgeCol Msg)
    (gk1 : grK.offsetDims = [1]) (gk2 : grK.collapsedSliceDims = [0]) (gk3 : grK.operandBatchingDims = [])
    (gk4 : grK.startIndicesBatchingDims = []) (gk5 : grK.startIndexMap = [0]) (gk6 : grK.indexVectorDim = 1)
    (gk7 : grK.sliceSizes = ![1, 128])
    (gr1 : grR.offsetDims = [1]) (gr2 : grR.collapsedSliceDims = [0]) (gr3 : grR.operandBatchingDims = [])
    (gr4 : grR.startIndicesBatchingDims = []) (gr5 : grR.startIndexMap = [0]) (gr6 : grR.indexVectorDim = 1)
    (gr7 : grR.sliceSizes = ![1, 128])
    (gv : GatherDims NodeVec EdgeCol EdgeVec)
    (gv1 : gv.offsetDims = []) (gv2 : gv.collapsedSliceDims = [0]) (gv3 : gv.operandBatchingDims = [])
    (gv4 : gv.startIndicesBatchingDims = []) (gv5 : gv.startIndexMap = [0]) (gv6 : gv.indexVectorDim = 1)
    (gv7 : gv.sliceSizes = ![1])
    (dd : DotDims Feat Wt Feat) (hdd : dd = DotDims.plain 100000 128 128)

/-- The network, spelling K: scale–aggregate–scale layers, then (h₂ + x·Wp) + bp. -/
def netK (x : FVec Ideal Feat .f32) (W1 : FVec Ideal Wt .f32) (b1 : FVec Ideal LaneVec .f32) (W2 : FVec Ideal Wt .f32)
    (b2 : FVec Ideal LaneVec .f32) (Wp : FVec Ideal Wt .f32) (bp : FVec Ideal LaneVec .f32) (d : FVec Ideal NodeVec .f32)
    (tgtv srcv : IVec EdgeVec 32) : FVec Ideal Feat .f32 :=
  residual
    (layerK hbE hbF hbc hbd hsr scK grK (layerK hbE hbF hbc hbd hsr scK grK x W1 d tgtv srcv b1) W2 d tgtv srcv b2)
    x Wp (shapeCast LaneRow bp hsr)

/-- The network, spelling R: messages scaled by both ends, then h₂ + (x·Wp + bp). -/
def netR (x : FVec Ideal Feat .f32) (W1 : FVec Ideal Wt .f32) (b1 : FVec Ideal LaneVec .f32) (W2 : FVec Ideal Wt .f32)
    (b2 : FVec Ideal LaneVec .f32) (Wp : FVec Ideal Wt .f32) (bp : FVec Ideal LaneVec .f32) (d : FVec Ideal NodeVec .f32)
    (tgtv srcv : IVec EdgeVec 32) : FVec Ideal Feat .f32 :=
  addf
    (layerR hbE hbF hbc hbm hbr hbf scR grR gv dd
      (layerR hbE hbF hbc hbm hbr hbf scR grR gv dd x W1 d tgtv srcv b1) W2 d tgtv srcv b2)
    (addf (Host.dotGeneral dd none x Wp) (broadcastInDim Feat ![0, 1] hbf (broadcastInDim LaneRow ![1] hbr bp)))

include hk1 hk2 hk3 hk4 hr1 hr2 hr3 hr4 gk1 gk2 gk3 gk4 gk5 gk6 gk7 gr1 gr2 gr3 gr4 gr5 gr6 gr7 gv1 gv2 gv3 gv4 gv5 gv6 gv7 hdd in
/-- The whole network is one array in both spellings, for a scale that is a nonnegative real at every node. -/
theorem net_eq (x : FVec Ideal Feat .f32) (W1 : FVec Ideal Wt .f32) (b1 : FVec Ideal LaneVec .f32)
    (W2 : FVec Ideal Wt .f32) (b2 : FVec Ideal LaneVec .f32) (Wp : FVec Ideal Wt .f32) (bp : FVec Ideal LaneVec .f32)
    (d : FVec Ideal NodeVec .f32) (tgtv srcv : IVec EdgeVec 32)
    (hd0 : ∀ k : Fin 100000, 0 ≤ d (ix1 k)) (hdt : ∀ k : Fin 100000, d (ix1 k) ≠ ⊤) :
    netK hbE hbF hbc hbd hsr scK grK x W1 b1 W2 b2 Wp bp d tgtv srcv
      = netR hbE hbF hbc hbm hbr hbf scR grR gv dd x W1 b1 W2 b2 Wp bp d tgtv srcv := by
  unfold netK netR
  rw [layer_KR hbE hbF hbc hbd hbm hbr hbf hsr scK scR hk1 hk2 hk3 hk4 hr1 hr2 hr3 hr4 grK grR gk1 gk2 gk3 gk4 gk5 gk6 gk7
      gr1 gr2 gr3 gr4 gr5 gr6 gr7 gv gv1 gv2 gv3 gv4 gv5 gv6 gv7 dd hdd x W1 d tgtv srcv b1 hd0 hdt,
    layer_KR hbE hbF hbc hbd hbm hbr hbf hsr scK scR hk1 hk2 hk3 hk4 hr1 hr2 hr3 hr4 grK grR gk1 gk2 gk3 gk4 gk5 gk6 gk7
      gr1 gr2 gr3 gr4 gr5 gr6 gr7 gv gv1 gv2 gv3 gv4 gv5 gv6 gv7 dd hdd _ W2 d tgtv srcv b2 hd0 hdt]
  funext i
  obtain ⟨k, l, rfl⟩ : ∃ (k : Fin 100000) (l : Fin 128), i = ix2 k l := ⟨i 0, i 1, eq_ix2 i⟩
  have hdot : Host.dotGeneral (F := Ideal) (φ₁ := .f32) (φ₂ := .f32) dd none x Wp (ix2 k l) = lin x Wp k l :=
    Cert.PlainDot.dotGeneral_apply dd hdd none _ x Wp k l
  rw [residual_apply, addf_apply, addf_apply, Cert.RowInDim.broadcastInDim_rows (by norm_num),
    Cert.RowOfVector.broadcastInDim_row (by norm_num), Cert.RowVector.shapeCast_row, add_assoc, hdot]

end Net

end Cert.Gcn

end
-- ==== Proof.Walk.lean ====
/-
  The result buffer at the last boundary, as the network in spelling K of the launch memory.

  First, the buffers a segment only reads, or does not touch: the node column, the edge words, the bias rows and the
  arguments hold at every later boundary what they held when the first pallas_call was entered. Then each pallas_call's
  result at its exit boundary is its one function of what it was entered with, and each aggregation stretch's result is
  the aggregation of the previous call's result. Chaining these from the return back to the launch, and reading the
  buffers the first three stretches computed (edge words, degrees, node scale, bias rows) off the launch memory, gives
  the whole expression.
-/
import proofs.«105244_j45346264711451_2_alg».proof.Proof.Fold
import proofs.«105244_j45346264711451_2_alg».proof.Proof.Network

set_option maxRecDepth 16384

noncomputable section

namespace Cert.KernelIdeal.Walk

open Cert.KernelIdeal Cert.KernelIdeal.Gen Cert.KernelIdeal.Fold Cert.Gcn
open Idealize.ShloMosaic Idealize.ShloMosaic.TcCoe Idealize.ShloMosaic.ValueIdx Idealize.SL.Sem

/-- A stretch of host operations leaves a buffer none of them writes. -/
macro "host_kept " ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg) (c : Dev nD)

/-! ## What later boundaries keep from the first pallas_call's entry -/

/-- The node column, at the entries of the second, third and fourth pallas_calls. -/
theorem v15_5 : W5 m ρ c (Proc.devRef .tc main_v15) = W3 m ρ c (Proc.devRef .tc main_v15) :=
  ((by host_kept hostOps1 : W5 m ρ c (Proc.devRef .tc main_v15) = W4 m ρ c (Proc.devRef .tc main_v15)).trans ((W4_arr m ρ c 2).trans (((dat0 (V3 m ρ) c).arrAt_in 2 rfl _).trans (A_eq0 (V3 m ρ) c 2))))
theorem v15_6 : W6 m ρ c (Proc.devRef .tc main_v15) = W3 m ρ c (Proc.devRef .tc main_v15) :=
  ((W6_arr m ρ c 1).trans (((dat1 (V5 m ρ) c).arrAt_in 1 rfl _).trans (A_eq1 (V5 m ρ) c 1))).trans (v15_5 m ρ c)
theorem v15_8 : W8 m ρ c (Proc.devRef .tc main_v15) = W3 m ρ c (Proc.devRef .tc main_v15) :=
  ((by host_kept hostOps3 : W8 m ρ c (Proc.devRef .tc main_v15) = W7 m ρ c (Proc.devRef .tc main_v15)).trans ((W7_arr m ρ c 2).trans (((dat2 (V6 m ρ) c).arrAt_in 2 rfl _).trans (A_eq2 (V6 m ρ) c 2)))).trans (v15_6 m ρ c)

/-- The source and target words, where the two aggregation stretches read them. -/
theorem v3_4 : W4 m ρ c (Proc.devRef .tc main_v3) = W3 m ρ c (Proc.devRef .tc main_v3) := (W4_of_ne m ρ c main_v3 (by decide))
theorem v6_4 : W4 m ρ c (Proc.devRef .tc main_v6) = W3 m ρ c (Proc.devRef .tc main_v6) := (W4_of_ne m ρ c main_v6 (by decide))
theorem v3_7 : W7 m ρ c (Proc.devRef .tc main_v3) = W3 m ρ c (Proc.devRef .tc main_v3) :=
  ((W7_of_ne m ρ c main_v3 (by decide)).trans ((W6_of_ne m ρ c main_v3 (by decide)).trans (by host_kept hostOps1 : W5 m ρ c (Proc.devRef .tc main_v3) = W4 m ρ c (Proc.devRef .tc main_v3)))).trans (v3_4 m ρ c)
theorem v6_7 : W7 m ρ c (Proc.devRef .tc main_v6) = W3 m ρ c (Proc.devRef .tc main_v6) :=
  ((W7_of_ne m ρ c main_v6 (by decide)).trans ((W6_of_ne m ρ c main_v6 (by decide)).trans (by host_kept hostOps1 : W5 m ρ c (Proc.devRef .tc main_v6) = W4 m ρ c (Proc.devRef .tc main_v6)))).trans (v6_4 m ρ c)

/-- The three bias rows, each where its pallas_call reads it. -/
theorem v16_5 : W5 m ρ c (Proc.devRef .tc main_v16) = W3 m ρ c (Proc.devRef .tc main_v16) :=
  ((by host_kept hostOps1 : W5 m ρ c (Proc.devRef .tc main_v16) = W4 m ρ c (Proc.devRef .tc main_v16)).trans (W4_of_ne m ρ c main_v16 (by decide)))
theorem v17_8 : W8 m ρ c (Proc.devRef .tc main_v17) = W3 m ρ c (Proc.devRef .tc main_v17) :=
  ((by host_kept hostOps3 : W8 m ρ c (Proc.devRef .tc main_v17) = W7 m ρ c (Proc.devRef .tc main_v17)).trans ((W7_of_ne m ρ c main_v17 (by decide)).trans ((W6_of_ne m ρ c main_v17 (by decide)).trans ((by host_kept hostOps1 : W5 m ρ c (Proc.devRef .tc main_v17) = W4 m ρ c (Proc.devRef .tc main_v17)).trans (W4_of_ne m ρ c main_v17 (by decide))))))
theorem v18_9 : W9 m ρ c (Proc.devRef .tc main_v18) = W3 m ρ c (Proc.devRef .tc main_v18) :=
  ((W9_of_ne m ρ c main_v18 (by decide)).trans ((by host_kept hostOps3 : W8 m ρ c (Proc.devRef .tc main_v18) = W7 m ρ c (Proc.devRef .tc main_v18)).trans ((W7_of_ne m ρ c main_v18 (by decide)).trans ((W6_of_ne m ρ c main_v18 (by decide)).trans ((by host_kept hostOps1 : W5 m ρ c (Proc.devRef .tc main_v18) = W4 m ρ c (Proc.devRef .tc main_v18)).trans (W4_of_ne m ρ c main_v18 (by decide)))))))

/-- The arguments the later pallas_calls read. -/
theorem arg5_6 : W6 m ρ c (Proc.devRef .tc main_arg5) = W3 m ρ c (Proc.devRef .tc main_arg5) :=
  ((W6_of_ne m ρ c main_arg5 (by decide)).trans ((by host_kept hostOps1 : W5 m ρ c (Proc.devRef .tc main_arg5) = W4 m ρ c (Proc.devRef .tc main_arg5)).trans (W4_of_ne m ρ c main_arg5 (by decide))))
theorem arg0_9 : W9 m ρ c (Proc.devRef .tc main_arg0) = W3 m ρ c (Proc.devRef .tc main_arg0) :=
  ((W9_of_ne m ρ c main_arg0 (by decide)).trans ((by host_kept hostOps3 : W8 m ρ c (Proc.devRef .tc main_arg0) = W7 m ρ c (Proc.devRef .tc main_arg0)).trans ((W7_of_ne m ρ c main_arg0 (by decide)).trans ((W6_of_ne m ρ c main_arg0 (by decide)).trans ((by host_kept hostOps1 : W5 m ρ c (Proc.devRef .tc main_arg0) = W4 m ρ c (Proc.devRef .tc main_arg0)).trans ((W4_arr m ρ c 0).trans (((dat0 (V3 m ρ) c).arrAt_in 0 rfl _).trans (A_eq0 (V3 m ρ) c 0))))))))
theorem arg7_9 : W9 m ρ c (Proc.devRef .tc main_arg7) = W3 m ρ c (Proc.devRef .tc main_arg7) :=
  ((W9_of_ne m ρ c main_arg7 (by decide)).trans ((by host_kept hostOps3 : W8 m ρ c (Proc.devRef .tc main_arg7) = W7 m ρ c (Proc.devRef .tc main_arg7)).trans ((W7_of_ne m ρ c main_arg7 (by decide)).trans ((W6_of_ne m ρ c main_arg7 (by decide)).trans ((by host_kept hostOps1 : W5 m ρ c (Proc.devRef .tc main_arg7) = W4 m ρ c (Proc.devRef .tc main_arg7)).trans (W4_of_ne m ρ c main_arg7 (by decide)))))))

/-! ## The first pallas_call's entry, read off the launch memory -/

section Entry

variable (Wp : Valuation τ sig (Elt Ideal))

set_option maxHeartbeats 4000000 in
/-- The three stretches before the first pallas_call write no argument. -/
theorem entry_arg0 : StableHlo.after hostOps0_2 (StableHlo.after hostOps0_1 (StableHlo.after hostOps0 Wp)) (Proc.devRef .tc main_arg0) = Wp (Proc.devRef .tc main_arg0) := by
  after_results_simp <;> rfl
set_option maxHeartbeats 4000000 in
theorem entry_arg3 : StableHlo.after hostOps0_2 (StableHlo.after hostOps0_1 (StableHlo.after hostOps0 Wp)) (Proc.devRef .tc main_arg3) = Wp (Proc.devRef .tc main_arg3) := by
  after_results_simp <;> rfl
set_option maxHeartbeats 4000000 in
theorem entry_arg5 : StableHlo.after hostOps0_2 (StableHlo.after hostOps0_1 (StableHlo.after hostOps0 Wp)) (Proc.devRef .tc main_arg5) = Wp (Proc.devRef .tc main_arg5) := by
  after_results_simp <;> rfl
set_option maxHeartbeats 4000000 in
theorem entry_arg7 : StableHlo.after hostOps0_2 (StableHlo.after hostOps0_1 (StableHlo.after hostOps0 Wp)) (Proc.devRef .tc main_arg7) = Wp (Proc.devRef .tc main_arg7) := by
  after_results_simp <;> rfl

end Entry

theorem W3_v15 : W3 m ρ c (Proc.devRef .tc main_v15) = broadcastInDim S100000x1 ![0] bcast_S100000_S100000x1_0
    (Cert.Gcn.guard bcast_S_S100000 (degrees (m ((c.tc : Thread nD τ).loc main_arg1)))) := entry_v15 (W0 m ρ c)
theorem W3_v3 : W3 m ρ c (Proc.devRef .tc main_v3) = srcWords (m ((c.tc : Thread nD τ).loc main_arg1)) := entry_v3 (W0 m ρ c)
theorem W3_v6 : W3 m ρ c (Proc.devRef .tc main_v6) = tgtWords (m ((c.tc : Thread nD τ).loc main_arg1)) := entry_v6 (W0 m ρ c)
theorem W3_v16 : W3 m ρ c (Proc.devRef .tc main_v16) = shapeCast S1x128 (m ((c.tc : Thread nD τ).loc main_arg4)) shapeCasts_S128_S1x128 := entry_v16 (W0 m ρ c)
theorem W3_v17 : W3 m ρ c (Proc.devRef .tc main_v17) = shapeCast S1x128 (m ((c.tc : Thread nD τ).loc main_arg6)) shapeCasts_S128_S1x128 := entry_v17 (W0 m ρ c)
theorem W3_v18 : W3 m ρ c (Proc.devRef .tc main_v18) = shapeCast S1x128 (m ((c.tc : Thread nD τ).loc main_arg8)) shapeCasts_S128_S1x128 := entry_v18 (W0 m ρ c)
theorem W3_arg0 : W3 m ρ c (Proc.devRef .tc main_arg0) = m ((c.tc : Thread nD τ).loc main_arg0) := entry_arg0 (W0 m ρ c)
theorem W3_arg3 : W3 m ρ c (Proc.devRef .tc main_arg3) = m ((c.tc : Thread nD τ).loc main_arg3) := entry_arg3 (W0 m ρ c)
theorem W3_arg5 : W3 m ρ c (Proc.devRef .tc main_arg5) = m ((c.tc : Thread nD τ).loc main_arg5) := entry_arg5 (W0 m ρ c)
theorem W3_arg7 : W3 m ρ c (Proc.devRef .tc main_arg7) = m ((c.tc : Thread nD τ).loc main_arg7) := entry_arg7 (W0 m ρ c)

/-! ## Each segment's result at its exit boundary -/

theorem out0 : W4 m ρ c (Proc.devRef .tc main_v19) = scaled (W3 m ρ c (Proc.devRef .tc main_arg0)) (W3 m ρ c (Proc.devRef .tc main_arg3)) (W3 m ρ c (Proc.devRef .tc main_v15)) :=
  (W4_arr m ρ c 3).trans (Region0.final (V3 m ρ) c)
theorem agg1 : W5 m ρ c (Proc.devRef .tc main_v29) = aggregate (W4 m ρ c (Proc.devRef .tc main_v6)) (W4 m ρ c (Proc.devRef .tc main_v3)) (W4 m ρ c (Proc.devRef .tc main_v19)) :=
  host1_v29 (W4 m ρ c)
theorem out1 : W6 m ρ c (Proc.devRef .tc main_v30) = biasRelu (W5 m ρ c (Proc.devRef .tc main_v29)) (W5 m ρ c (Proc.devRef .tc main_v15)) (W5 m ρ c (Proc.devRef .tc main_v16)) :=
  (W6_arr m ρ c 3).trans (Region1.final (V5 m ρ) c)
theorem out2 : W7 m ρ c (Proc.devRef .tc main_v31) = scaled (W6 m ρ c (Proc.devRef .tc main_v30)) (W6 m ρ c (Proc.devRef .tc main_arg5)) (W6 m ρ c (Proc.devRef .tc main_v15)) :=
  (W7_arr m ρ c 3).trans (Region2.final (V6 m ρ) c)
theorem agg2 : W8 m ρ c (Proc.devRef .tc main_v41) = aggregate (W7 m ρ c (Proc.devRef .tc main_v6)) (W7 m ρ c (Proc.devRef .tc main_v3)) (W7 m ρ c (Proc.devRef .tc main_v31)) :=
  host3_v41 (W7 m ρ c)
theorem out3 : W9 m ρ c (Proc.devRef .tc main_v42) = biasRelu (W8 m ρ c (Proc.devRef .tc main_v41)) (W8 m ρ c (Proc.devRef .tc main_v15)) (W8 m ρ c (Proc.devRef .tc main_v17)) :=
  (W9_arr m ρ c 3).trans (Region3.final (V8 m ρ) c)
theorem out4 : W10 m ρ c (Proc.devRef .tc main_v43)
    = residual (W9 m ρ c (Proc.devRef .tc main_v42)) (W9 m ρ c (Proc.devRef .tc main_arg0)) (W9 m ρ c (Proc.devRef .tc main_arg7)) (W9 m ρ c (Proc.devRef .tc main_v18)) :=
  (W10_arr m ρ c 4).trans (Region4.final (V9 m ρ) c)

/-! ## The result buffer -/

/-- The result buffer at the last boundary is the network in spelling K of the launch memory. -/
theorem value : W10 m ρ c (Proc.devRef .tc main_v43)
    = netK bcast_S_S1700000 bcast_S_S100000x128 bcast_S1700000_S1700000x1_0 bcast_S100000_S100000x1_0 shapeCasts_S128_S1x128
        scatter_S100000x128_S1700000x1_S1700000x128_1_0_0_1 gather_S100000x128_S1700000x1_S1700000x128_1_0_n_n_0_1_1128
        (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8))
        (Cert.Gcn.guard bcast_S_S100000 (degrees (m ((c.tc : Thread nD τ).loc main_arg1))))
        (tgtWords (m ((c.tc : Thread nD τ).loc main_arg1))) (srcWords (m ((c.tc : Thread nD τ).loc main_arg1))) := by
  rw [out4 m ρ c, out3 m ρ c, agg2 m ρ c, out2 m ρ c, out1 m ρ c, agg1 m ρ c, out0 m ρ c,
    arg0_9 m ρ c, arg7_9 m ρ c, v18_9 m ρ c, v15_8 m ρ c, v17_8 m ρ c, v6_7 m ρ c, v3_7 m ρ c, arg5_6 m ρ c,
    v15_6 m ρ c, v15_5 m ρ c, v16_5 m ρ c, v6_4 m ρ c, v3_4 m ρ c,
    W3_v15 m ρ c, W3_v3 m ρ c, W3_v6 m ρ c, W3_v16 m ρ c, W3_v17 m ρ c, W3_v18 m ρ c,
    W3_arg0 m ρ c, W3_arg3 m ρ c, W3_arg5 m ρ c, W3_arg7 m ρ c]
  unfold netK layerK aggregate wrap zeros
  rfl

end Cert.KernelIdeal.Walk

end
-- ==== Proof.RefValue.lean ====
/-
  The reference program's result term, recognised as the network in spelling R.

  The reference is a straight line of host operations; its run read back gives the result buffer as one composed term of
  the launch memory. That term IS spelling R of the network — the degrees accumulated at the target words, the node scale
  their guarded reciprocal root, each layer `max (aggregate ((H·W)[src] · (d[src] · d[tgt])) + b) 0`, the last line
  `h₂ + (x·Wp + bp)` — with the edge words read off the edge-index argument exactly as the kernel program reads them.
  Nothing is computed here: both sides are the same expression once the names are unfolded.
-/
import proofs.«105244_j45346264711451_2_alg».proof.Proof.RefRunP
import proofs.«105244_j45346264711451_2_alg».proof.Proof.Network

set_option maxRecDepth 16384

noncomputable section

namespace Cert.ReferenceIdeal.RefValue

open Cert.ReferenceIdeal Cert.ReferenceIdeal.Gen Cert.Gcn
open Idealize.ShloMosaic Idealize.ShloMosaic.TcCoe Idealize.ShloMosaic.ValueIdx Idealize.SL.Sem

/-- The target words: row 1 of the edge-index argument, then the self loops 0, 1, …, 99999. -/
def tgtWords (e : IVec S2x1600000 32) : IVec S1700000 32 :=
  concatenate S1700000 0
    [⟨S1600000, shapeCast S1600000 (extractStridedSlice S1x1600000 ![1, 0] e slices_S2x1600000_S1x1600000_1_0) shapeCasts_S1x1600000_S1600000⟩,
     ⟨S100000, iotaInDim S100000 32 0⟩] concatenates_S1600000_S100000_S1700000_d0

/-- The source words: row 0 of the edge-index argument, then the self loops. -/
def srcWords (e : IVec S2x1600000 32) : IVec S1700000 32 :=
  concatenate S1700000 0
    [⟨S1600000, shapeCast S1600000 (extractStridedSlice S1x1600000 ![0, 0] e slices_S2x1600000_S1x1600000_0_0) shapeCasts_S1x1600000_S1600000⟩,
     ⟨S100000, iotaInDim S100000 32 0⟩] concatenates_S1600000_S100000_S1700000_d0

/-- The degrees: ones accumulated at the target words, from zero. -/
def degrees (e : IVec S2x1600000 32) : FVec Ideal S100000 .f32 :=
  Host.scatterAdd scatter_S100000_S1700000x1_S1700000_n_0_0_1
    (broadcastInDim S100000 ![] bcast_S_S100000 (constant (F := Ideal) S_ .f32 0x00000000#32))
    (broadcastInDim S1700000x1 ![0] bcast_S1700000_S1700000x1_0 (tgtWords e))
    (broadcastInDim S1700000 ![] bcast_S_S1700000 (constant (F := Ideal) S_ .f32 0x3F800000#32))

set_option maxHeartbeats 4000000 in
/-- The run's composed result term is the network in spelling R, of the launch memory. -/
theorem res_eq (m : (ℓ : Loc nD τ sig) → Buf (Elt Ideal) ℓ) (c : Dev nD) :
    Cert.ReferenceIdeal.ValueP.res_main_v70 m c
      = netR bcast_S_S1700000 bcast_S_S100000x128 bcast_S1700000_S1700000x1_0 bcast_S1700000x1_S1700000x128_0_1
          bcast_S128_S1x128_1 bcast_S1x128_S100000x128_0_1
          scatter_S100000x128_S1700000x1_S1700000x128_1_0_0_1 gather_S100000x128_S1700000x1_S1700000x128_1_0_n_n_0_1_1128
          gather_S100000_S1700000x1_S1700000_n_0_n_n_0_1_1 dot_S100000x128_S128x128_S100000x128_1_0_0_1_n_n
          (m ((c.tc : Thread nD τ).loc main_arg0)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8))
          (Cert.Gcn.guard bcast_S_S100000 (degrees (m ((c.tc : Thread nD τ).loc main_arg1))))
          (tgtWords (m ((c.tc : Thread nD τ).loc main_arg1))) (srcWords (m ((c.tc : Thread nD τ).loc main_arg1))) := by
  unfold Cert.ReferenceIdeal.ValueP.res_main_v70 netR layerR wrap zeros Cert.Gcn.guard degrees tgtWords srcWords
  rfl

end Cert.ReferenceIdeal.RefValue

end
-- ==== Proof.Bridge.lean ====
/-
  The two programs' results are one array.

  The kernel program's result buffer is the network in spelling K of its launch memory; the reference's is the network in
  spelling R of its launch memory. The two memories agree on the nine arguments, and both programs read the edge words,
  the degrees and hence the node scale off the edge-index argument by the same operations (only the names of the
  dimension records differ between the two printed programs; their contents are equal). The node scale is a nonnegative
  real at every node whatever the degrees are, so the network equation applies.
-/
import proofs.«105244_j45346264711451_2_alg».proof.Proof.Walk
import proofs.«105244_j45346264711451_2_alg».proof.Proof.RefValue

set_option maxRecDepth 16384

noncomputable section

namespace Cert.Bridge

open Cert.Gcn
open Idealize.ShloMosaic Idealize.ShloMosaic.TcCoe Idealize.ShloMosaic.ValueIdx Idealize.SL.Sem

/-- Both programs cut the target words, the source words and the degrees out of the edge-index argument alike. -/
theorem tgt_eq : Cert.ReferenceIdeal.RefValue.tgtWords = Cert.KernelIdeal.Fold.tgtWords := rfl
theorem src_eq : Cert.ReferenceIdeal.RefValue.srcWords = Cert.KernelIdeal.Fold.srcWords := rfl
theorem deg_eq : Cert.ReferenceIdeal.RefValue.degrees = Cert.KernelIdeal.Fold.degrees := rfl

set_option maxHeartbeats 4000000 in
/-- The kernel program's result buffer at its last boundary is the reference run's result term, for memories that agree
    on the arguments. -/
theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.KernelIdeal.Gen.W10 m ρ c (Proc.devRef .tc Cert.KernelIdeal.main_v43)
      = Cert.ReferenceIdeal.ValueP.res_main_v70 m' c := by
  rw [Cert.KernelIdeal.Walk.value m ρ c, Cert.ReferenceIdeal.RefValue.res_eq m' c, h0, h1, h3, h4, h5, h6, h7, h8,
    tgt_eq, src_eq, deg_eq]
  exact net_eq Cert.KernelIdeal.Facts₀.bcast_S_S1700000 Cert.KernelIdeal.Facts₀.bcast_S_S100000x128
    Cert.KernelIdeal.Facts₀.bcast_S1700000_S1700000x1_0 Cert.KernelIdeal.Facts₀.bcast_S100000_S100000x1_0
    Cert.ReferenceIdeal.Facts₀.bcast_S1700000x1_S1700000x128_0_1 Cert.ReferenceIdeal.Facts₀.bcast_S128_S1x128_1
    Cert.ReferenceIdeal.Facts₀.bcast_S1x128_S100000x128_0_1 Cert.KernelIdeal.Facts₀.shapeCasts_S128_S1x128
    Cert.KernelIdeal.scatter_S100000x128_S1700000x1_S1700000x128_1_0_0_1
    Cert.ReferenceIdeal.scatter_S100000x128_S1700000x1_S1700000x128_1_0_0_1
    rfl rfl rfl rfl rfl rfl rfl rfl
    Cert.KernelIdeal.gather_S100000x128_S1700000x1_S1700000x128_1_0_n_n_0_1_1128
    Cert.ReferenceIdeal.gather_S100000x128_S1700000x1_S1700000x128_1_0_n_n_0_1_1128
    rfl rfl rfl rfl rfl rfl rfl rfl rfl rfl rfl rfl rfl rfl
    Cert.ReferenceIdeal.gather_S100000_S1700000x1_S1700000_n_0_n_n_0_1_1
    rfl rfl rfl rfl rfl rfl rfl
    Cert.ReferenceIdeal.dot_S100000x128_S128x128_S100000x128_1_0_0_1_n_n rfl
    _ _ _ _ _ _ _ _ _ _
    (fun k => (guard_range Cert.KernelIdeal.Facts₀.bcast_S_S100000 _ k).1)
    (fun k => (guard_range Cert.KernelIdeal.Facts₀.bcast_S_S100000 _ k).2)

end Cert.Bridge

end
-- ==== Proof.lean ====
/-
  The certificate of a two-layer graph convolution with a residual projection: a program of five pallas_calls among
  host operations (the kernel) against a straight line of host operations (the reference), equal as extended reals.

  What the two programs compute. With N = 100000 nodes of 128 features, an edge list extended by one self loop per node,
  deg(k) the number of edges into k and d = 1/√deg (0 where deg is 0), a layer sends H to
      max ( ∑ over edges (s → k) of (H·W)(s) · d(s) · d(k)  +  b ) 0,
  and the result is h₂ + (x·Wp + bp). The reference scales every message by d(s)·d(k) inside the sum. The kernel scales
  the rows of H·W by d before the sum and the sum by d(k) after it, which is the same number because d(k) is a
  nonnegative real (it distributes over the sum whatever the summands are) and on an edge into k the looked-up target
  is k. Nothing here needs the inputs to be finite.

  How the pieces fit. Proof/Region0 … Region4: each pallas_call's result array as one function of the arrays it is
  entered with. Proof/Fold and Proof/Walk: the kernel program's result buffer walked back through its segments to the
  launch memory — the network in spelling K. Proof/RefValue: the reference run's result term is the network in spelling R.
  Proof/Law, Layer, Model, Network: the two spellings are one array. Proof/Bridge joins them. The frames are the
  generated ones; the ideal pass rewrote nothing, so the preservation claim is trivial.
-/
import proofs.«105244_j45346264711451_2_alg».proof.Defs
import proofs.«105244_j45346264711451_2_alg».proof.Proof.Gen.Kernel
import proofs.«105244_j45346264711451_2_alg».proof.Proof.Gen.Kernel.Skeleton
import proofs.«105244_j45346264711451_2_alg».proof.Proof.Gen.Kernel.Launch
import proofs.«105244_j45346264711451_2_alg».proof.Proof.Gen.Kernel.Points
import proofs.«105244_j45346264711451_2_alg».proof.Proof.Gen.Kernel.Frame
import proofs.«105244_j45346264711451_2_alg».proof.Proof.Gen.KernelIdeal
import proofs.«105244_j45346264711451_2_alg».proof.Proof.Gen.KernelIdeal.Skeleton
import proofs.«105244_j45346264711451_2_alg».proof.Proof.Gen.KernelIdeal.Launch
import proofs.«105244_j45346264711451_2_alg».proof.Proof.Gen.KernelIdeal.Points
import proofs.«105244_j45346264711451_2_alg».proof.Proof.Gen.KernelIdeal.Frame
import proofs.«105244_j45346264711451_2_alg».proof.Proof.Gen.ReferenceIdeal
import proofs.«105244_j45346264711451_2_alg».proof.Proof.RefRunP
import proofs.«105244_j45346264711451_2_alg».proof.Proof.KernelRunP
import proofs.«105244_j45346264711451_2_alg».proof.Proof.Bridge
import proofs.«105244_j45346264711451_2_alg».proof.Proof.Gen.Pre_finite_inputs
import Idealize.ShloMosaic.Adequacy
import Idealize.ShloMosaic.Init

noncomputable section

namespace Cert.Proof

open Idealize.ShloMosaic Idealize.SL.Sem Cert.Kernel

/-- The kernel program as printed runs and leaves its arguments. -/
theorem frame_kernel : Cert.frame_Kernel :=
  fun m ρ _ => Cert.Kernel.Gen.frame m ρ

/-- So does its idealization. -/
theorem frame_kernelIdeal : Cert.frame_KernelIdeal :=
  fun m ρ _ => Cert.KernelIdeal.Gen.frame m ρ

/-- The reference's frame is its run with the result dropped. -/
theorem frame_reference : Cert.frame_ReferenceIdeal :=
  fun m ρ _ => (θ_run Cert.ReferenceIdeal.defs _ _).mono (fun _ h c => (h c).2)
    (Cert.ReferenceIdeal.ValueP.run (F := Ideal) m ρ)

/-- Both idealized programs run, and end with equal results: the reference's run states its result term, and the kernel
    program's result buffer is that term for memories agreeing on the arguments. -/
theorem algebraic : Cert.algebraic_KernelIdeal_ReferenceIdeal := by
  intro m ρ m' ρ' _ hagree
  refine ⟨fun c => Cert.ReferenceIdeal.ValueP.res_main_v70 m' c, ?_, Cert.ReferenceIdeal.ValueP.run (F := Ideal) m' ρ'⟩
  refine (θ_run Cert.KernelIdeal.defs _ _).mono (fun r h c => ⟨(h c).1.trans ?_, (h c).2⟩)
    (Cert.KernelIdeal.GenP.run_named m ρ)
  obtain ⟨h0, h1, _, h3, h4, h5, h6, h7, h8⟩ := hagree c
  exact Cert.Bridge.result_eq m ρ m' c h0 h1 h3 h4 h5 h6 h7 h8

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
